-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S512x4096 .f32
  ∧ IdealRules.sign_bit.Statement Cert.KernelIdeal.S1024x2048 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096x4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096x4096 : Shape := ⟨2, ![4096, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩
abbrev S1x4096 : Shape := ⟨2, ![1, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .bf16⟩
  | .local _ .vmem, ⟨7, _⟩ => ⟨S1024x2048, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![16, 4, 2], ![false, false, false]⟩

def k1_cond2 (i : grid1.Coords) : BitVec 1 :=
  let arg2 : BitVec 32 := BitVec.ofNat 32 (i 2).val
  let c1_i32 : BitVec 32 := 1#32
  let v23 : BitVec 1 := Scalar.cmpi .eq arg2 c1_i32
  let v24 : BitVec 32 := Scalar.extui v23
  let c0_i32_9 : BitVec 32 := 0#32
  let v25 : BitVec 1 := Scalar.cmpi .ne v24 c0_i32_9
  v25

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x4096.size a
  hwx1_0 : ∀ i : grid1.Coords, EltTy.bits .f32 = 32 ∨ (Rect.block (s := S16384x4096) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x4096.size a
  hwx1_1 : ∀ i : grid1.Coords, EltTy.bits .bf16 = 32 ∨ (Rect.block (s := S4096x4096) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S16384x4096.size a
  hwx1_3 : ∀ i : grid1.Coords, EltTy.bits .f32 = 32 ∨ (Rect.block (s := S16384x4096) S1024x1024.size (cc1_transform_3 i) (hinb1_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S16384x4096, .f32⟩
  | .hbm, ⟨20, _⟩ => ⟨S4096x4096, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S16384x4096, .f32⟩
  | .hbm, ⟨32, _⟩ => ⟨S1x4096, .f32⟩
  | .hbm, ⟨33, _⟩ => ⟨S16384x4096, .f32⟩
  | .hbm, ⟨34, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x4096_S16384x4096_1_0_0_1_n_n_wf : DotDims.WF S16384x4096 S4096x4096 S16384x4096 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf

class Facts : Prop extends Facts₀ where

variable [Facts]
-- ==== Proof.PrepFrame.lean ====
import proofs.«118526_j5781025980877_1_alg».proof.Proof.Gen.KernelIdeal.Launch
import proofs.«118526_j5781025980877_1_alg».proof.Proof.Gen.KernelIdeal.Skeleton
import proofs.«118526_j5781025980877_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The weight-preparation region: its frame half at any float instance

The first region of the program turns the full-precision weight matrix into its prepared form, eight
row blocks of 512 × 4096 at a time. Its body reads one block of the input, computes one pure value from
it, and overwrites the whole output block with that value. This module states, at any buffer contents
`V` found when the region is entered: what each window's block is at a grid point, what the body leaves
in the output block as a function of the input block, the body's Hoare triple, the pipeline's proof data
and the body obligation of the launch theorem. Nothing here looks inside the arithmetic. -/

-- membership of an index in a 512 × 4096 rectangle is looked at structurally, once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`: the rows `512 t … 512 t + 511` of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose input array
    is `V`'s and whose body leaves the input block in place: the window is fetched at a point exactly when its block
    index moves, it is never cut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's one rectangle -/

/-- The whole 512 × 4096 block, as the rectangle the body loads and stores through. -/
abbrev r0_0 : Rect S512x4096 := Rect.unit (s := S512x4096) ![0, 0] S512x4096.size inb_S512x4096_S512x4096_0_0

/-! ## What the body leaves in the output block -/

/-- The output block after the body, from the input block: one store of the prepared value over the whole block. -/
def out0_1 (x0 : Vec F S512x4096 .f32) : Vec F S512x4096 .bf16 :=
  View.canon [⟨r0_0, k0_pay1 (View.ld x0 r0_0)⟩]

/-- The one store covers the block: every index of the block lies in the whole-block rectangle. -/
theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

/-! ## The body's triple -/

set_option maxHeartbeats 1000000 in
/-- The body on whole staging buffers, the input's at contents `x0` and the output's at anything, runs to a state with
    the input's buffer unchanged and the output's at `out0_1 x0`. The body also reads the output buffer before it
    stores (a read whose value is never used), which the unknown contents `d` allow. -/
theorem sound_kernel0 (c : Dev nD) (E : Set ℕ) (i : grid0.Coords) (arg1 : Memref sig .tc .vmem S512x4096 .f32) (harg1 : arg1.IsWhole)
    (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__weight_prep_kernel i arg1 harg1 arg2 harg2) K := by
  simp only [cc0__weight_prep_kernel_eq_skeleton]; unfold cc0__weight_prep_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the region on core `c`: the arrays as the region finds them; after the body at point `t` the
    input's buffer still at its block and the output's at `out0_1` of that block; the invariant is the untouched rest
    of the core (the other region's staging buffers and scratch, the generator register); nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.MatmulRuns.lean ====
/-
  The accumulating product (the second kernel region): what its runs share.

  The region walks a grid of 16 × 4 × 2 points (row block i, column block j, half k of the contracted axis, k
  innermost). A point's body adds the product of the signed activations' block (i, k) with the prepared weights'
  block (j, k) into an accumulator it keeps between points: at k = 0 it first clears the accumulator, at k = 1 it
  adds the bias row and stores the sum into the output block (i, j), which is written back only there. So a point is
  in one of two cases, decided by the parity of its position: even positions clear and add, odd positions add and
  emit. Stated here, at the buffer contents V the region is entered with: each window's block at a point, that an
  input window's buffer holds its block whether fetched there or not, the two conditions in closed form, where the
  output window is idle, and the region's invariant with the accumulator split out.
-/
import proofs.«118526_j5781025980877_1_alg».proof.Proof.Gen.KernelIdeal.Launch
import proofs.«118526_j5781025980877_1_alg».proof.Proof.Gen.KernelIdeal.Skeleton
import proofs.«118526_j5781025980877_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' window holds its block at every point, for any proof data over `V` whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' window likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's window likewise: it is fetched only when the column block changes, and between two fetches its
    block index does not move. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions, in closed form -/

/-- "This is the first half of the contracted axis": the body clears the accumulator. -/
abbrev cond1_0 (i : grid1.Coords) : Prop := (Scalar.cmpi .ne (Scalar.extui (Scalar.cmpi .eq (BitVec.ofNat 32 (i 2).val) 0#32)) 0#32) = 1#1
/-- It holds exactly at the even positions (k is the innermost coordinate, of extent 2). -/
theorem hcond1_0 : ∀ t : Fin cfg1.N, cond1_0 (grid1.coords t) ↔ t.val % 2 = 0 :=
  (by decide +kernel : ∀ t : Fin grid1.N, cond1_0 (grid1.coords t) ↔ t.val % 2 = 0)

/-- "This is the last half": the body adds the bias and stores the output block. -/
abbrev cond1_1 (i : grid1.Coords) : Prop := k1_cond2 i = 1#1
/-- It holds exactly at the odd positions. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At an even position nothing is stored into the output window, -/
theorem idleAt1_3_even : ∀ t : Fin cfg1.N, cond1_0 (grid1.coords t) → ¬cond1_1 (grid1.coords t) → cfg1.idle 3 (grid1.coords t) = true := by decide +kernel
/-- and its block is not written back there. -/
theorem noFlush1_3_even : ∀ t : Fin cfg1.N, cond1_0 (grid1.coords t) → ¬cond1_1 (grid1.coords t) → (cfg1.win 3).flush t = false := by decide +kernel
/-- At an odd position the output window is stored. -/
theorem liveAt1_3_odd : ∀ t : Fin cfg1.N, ¬cond1_0 (grid1.coords t) → cond1_1 (grid1.coords t) → cfg1.idle 3 (grid1.coords t) = false := by decide +kernel

/-! ## The staging memrefs at a point, the accumulator, and the invariant -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x1024 .f32 := Memref.whole cc1_scratch0
/-- One staging buffer of the output window, and the accumulator, as views: contents are stated through them. -/
abbrev VO1_3 : View sig .tc .vmem S1024x1024 .f32 := (Memref.whole cc1_stg3_0 : Memref sig .tc .vmem S1024x1024 .f32).view
abbrev VS1_0 : View sig .tc .vmem S1024x1024 .f32 := scM1_0.view

/-- The region's scoped rest with the accumulator described by `P`: the scoped buffers the region never touches
    (the first region's staging buffers) at anything, then the accumulator, and beside them the generator register at
    some state. -/
def withAcc (c : Dev nD) (P : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ P) ∗ (∃ r, prngReg c r))

/-- The class's invariant is the scoped rest with the accumulator at some contents. -/
theorem PhiA1_eq (c : Dev nD) :
    (Pipeline.ΦA spec1 c : sProp 𝕄) = withAcc (F := F) c iprop(∃ d, owns (c : Thread nD τ) scM1_0 fullShare d) := by
  unfold Pipeline.ΦA withAcc; rw [scopedRest1_eq]; simp only [scM1_0, owns_whole]; try rfl

/-- Weakening what is said of the accumulator. -/
theorem withAcc_mono (c : Dev nD) {P Q : sProp 𝕄} (h : P ⊢ Q) : withAcc (F := F) c P ⊢ withAcc (F := F) c Q := by
  unfold withAcc
  iintro ⟨⟨H0, H1, H2, H3, HP⟩, Hg⟩
  isplitr [Hg]
  · isplitl [H0]; · iexact H0
    isplitl [H1]; · iexact H1
    isplitl [H2]; · iexact H2
    isplitl [H3]; · iexact H3
    iapply h; iexact HP
  iexact Hg

end Cert.KernelIdeal.Hand

end
-- ==== Proof.MatmulRunEven.lean ====
/-
  The accumulating product at an even position (the first half of the contracted axis): the body clears the
  accumulator, loads the activations' and the weights' blocks, adds their product into the accumulator, and stores
  nothing into the output window. What the accumulator is left with is found by running the body: a list of stored
  pieces, last first.
-/
import proofs.«118526_j5781025980877_1_alg».proof.Proof.MatmulRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the activations' and the weights' at their blocks, the bias row's and the output's at
    whatever they hold (handed back untouched), the accumulator at anything — the body at a point of the first half
    runs to the continuation holding the inputs as they were and the accumulator with the found pieces written. -/
noncomputable def matmulRun_even (c : Dev nD) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : cond1_0 i) (hc1 : ¬cond1_1 i)
    (x0 : Vec F S1024x2048 .f32) (x1 : Vec F S1024x2048 .bf16) :
    { LS0 : List (View.Piece (Elt F) S1024x1024 .f32) //
      ∀ (x2 : Vec F S1x1024 .f32) (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun x2 xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.MatmulRunOdd.lean ====
/-
  The accumulating product at an odd position (the last half of the contracted axis): the body loads the
  activations' and the weights' blocks, adds their product into the accumulator the point before left, then adds the
  bias row to the accumulator and stores the sum into the output block. What the output's buffer and the accumulator
  are left with is found by running the body: lists of stored pieces, last first.
-/
import proofs.«118526_j5781025980877_1_alg».proof.Proof.MatmulRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the three inputs' at their blocks, the output's at anything, the accumulator at the
    contents `xs0` the point before left — the body at a point of the last half runs to the continuation holding the
    inputs as they were, and the output's buffer and the accumulator with the found pieces written. -/
noncomputable def matmulRun_odd (c : Dev nD) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : cond1_1 i)
    (x0 : Vec F S1024x2048 .f32) (x1 : Vec F S1024x2048 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.MatmulFrame.lean ====
/-
  The accumulating product: what the accumulator and the output block hold point by point, the region's proof data,
  and the body obligation at every point.

  Positions pair up: an even position 2n clears the accumulator and adds the product of the first halves, the odd
  position 2n + 1 adds the product of the second halves to what 2n left, adds the bias row and emits the block. So
  the accumulator after an even position is a function of that position's blocks alone, and after an odd position of
  its blocks and of the even position before it; no longer recursion is needed.
-/
import proofs.«118526_j5781025980877_1_alg».proof.Proof.MatmulRunEven
import proofs.«118526_j5781025980877_1_alg».proof.Proof.MatmulRunOdd

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At an even position the accumulator's stored pieces tile it. -/
theorem scover_even (c : Dev nD) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : cond1_0 i) (hc1 : ¬cond1_1 i)
    (x0 : Vec F S1024x2048 .f32) (x1 : Vec F S1024x2048 .bf16) (y : S1024x1024.Idx) :
    ∃ pc ∈ (matmulRun_even c i arg3 harg3 arg4 harg4 arg5 harg5 arg6 harg6 arg7 harg7 hc0 hc1 x0 x1).1, y ∈ pc.1.set :=
  View.cover_of_tiledL (matmulRun_even c i arg3 harg3 arg4 harg4 arg5 harg5 arg6 harg6 arg7 harg7 hc0 hc1 x0 x1).1 S1024x1024.size (by sl_kernel_rfl) y

/-- What an even position leaves in the accumulator: its pieces read back. -/
def acc_even (c : Dev nD) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : cond1_0 i) (hc1 : ¬cond1_1 i)
    (x0 : Vec F S1024x2048 .f32) (x1 : Vec F S1024x2048 .bf16) : Vec F S1024x1024 .f32 :=
  VS1_0.read (Elt F) (VS1_0.writes (Elt F) VS1_0.junk (matmulRun_even c i arg3 harg3 arg4 harg4 arg5 harg5 arg6 harg6 arg7 harg7 hc0 hc1 x0 x1).1)

/-- At an odd position the output block's stored pieces tile it, -/
theorem cover_odd (c : Dev nD) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : cond1_1 i)
    (x0 : Vec F S1024x2048 .f32) (x1 : Vec F S1024x2048 .bf16) (x2 : Vec F S1x1024 .f32) (xs0 : Vec F S1024x1024 .f32) (y : S1024x1024.Idx) :
    ∃ pc ∈ (matmulRun_odd c i arg3 harg3 arg4 harg4 arg5 harg5 arg6 harg6 arg7 harg7 hc0 hc1 x0 x1 x2 xs0).1, y ∈ pc.1.set :=
  View.cover_of_tiledL (matmulRun_odd c i arg3 harg3 arg4 harg4 arg5 harg5 arg6 harg6 arg7 harg7 hc0 hc1 x0 x1 x2 xs0).1 S1024x1024.size (by sl_kernel_rfl) y

/-- and so do the accumulator's. -/
theorem scover_odd (c : Dev nD) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : cond1_1 i)
    (x0 : Vec F S1024x2048 .f32) (x1 : Vec F S1024x2048 .bf16) (x2 : Vec F S1x1024 .f32) (xs0 : Vec F S1024x1024 .f32) (y : S1024x1024.Idx) :
    ∃ pc ∈ (matmulRun_odd c i arg3 harg3 arg4 harg4 arg5 harg5 arg6 harg6 arg7 harg7 hc0 hc1 x0 x1 x2 xs0).2.1, y ∈ pc.1.set :=
  View.cover_of_tiledL (matmulRun_odd c i arg3 harg3 arg4 harg4 arg5 harg5 arg6 harg6 arg7 harg7 hc0 hc1 x0 x1 x2 xs0).2.1 S1024x1024.size (by sl_kernel_rfl) y

/-- What an odd position leaves in the output block's buffer, -/
def out_odd (c : Dev nD) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : cond1_1 i)
    (x0 : Vec F S1024x2048 .f32) (x1 : Vec F S1024x2048 .bf16) (x2 : Vec F S1x1024 .f32) (xs0 : Vec F S1024x1024 .f32) : Vec F S1024x1024 .f32 :=
  VO1_3.read (Elt F) (VO1_3.writes (Elt F) VO1_3.junk (matmulRun_odd c i arg3 harg3 arg4 harg4 arg5 harg5 arg6 harg6 arg7 harg7 hc0 hc1 x0 x1 x2 xs0).1)

/-- and in the accumulator. -/
def acc_odd (c : Dev nD) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : cond1_1 i)
    (x0 : Vec F S1024x2048 .f32) (x1 : Vec F S1024x2048 .bf16) (x2 : Vec F S1x1024 .f32) (xs0 : Vec F S1024x1024 .f32) : Vec F S1024x1024 .f32 :=
  VS1_0.read (Elt F) (VS1_0.writes (Elt F) VS1_0.junk (matmulRun_odd c i arg3 harg3 arg4 harg4 arg5 harg5 arg6 harg6 arg7 harg7 hc0 hc1 x0 x1 x2 xs0).2.1)

/-! ## Point by point -/

theorem even_cond0 (t : Fin cfg1.N) (h0 : t.val % 2 = 0) : cond1_0 (grid1.coords t) := (hcond1_0 t).mpr h0
theorem even_ncond1 (t : Fin cfg1.N) (h0 : t.val % 2 = 0) : ¬cond1_1 (grid1.coords t) := fun h => by have := (hcond1_1 t).mp h; omega
theorem odd_ncond0 (t : Fin cfg1.N) (h0 : ¬t.val % 2 = 0) : ¬cond1_0 (grid1.coords t) := fun h => h0 ((hcond1_0 t).mp h)
theorem odd_cond1 (t : Fin cfg1.N) (h0 : ¬t.val % 2 = 0) : cond1_1 (grid1.coords t) := (hcond1_1 t).mpr (by omega)

/-- The point before an odd position, which is even. -/
def prev (t : Fin cfg1.N) : Fin cfg1.N := ⟨t.val - 1, Nat.lt_of_le_of_lt (Nat.sub_le _ _) t.isLt⟩
theorem prev_even (t : Fin cfg1.N) (h0 : ¬t.val % 2 = 0) : (prev t).val % 2 = 0 := by unfold prev; dsimp only; omega

/-- The accumulator after an even position: the product of the first halves over a cleared accumulator. -/
def accE (c : Dev nD) (t : Fin cfg1.N) (h0 : t.val % 2 = 0) : Vec F S1024x1024 .f32 :=
  acc_even c (grid1.coords t) (ms1_0 t) (hs1_0 t) (ms1_1 t) (hs1_1 t) (ms1_2 t) (hs1_2 t) (ms1_3 t) (hs1_3 t) scM1_0 (Memref.isWhole_whole _) (even_cond0 t h0) (even_ncond1 t h0) (iblk1 V c 0 t) (iblk1 V c 1 t)

/-- The accumulator after any position. -/
def accAt (c : Dev nD) (t : Fin cfg1.N) : Vec F S1024x1024 .f32 :=
  if h0 : t.val % 2 = 0 then accE V c t h0
  else acc_odd c (grid1.coords t) (ms1_0 t) (hs1_0 t) (ms1_1 t) (hs1_1 t) (ms1_2 t) (hs1_2 t) (ms1_3 t) (hs1_3 t) scM1_0 (Memref.isWhole_whole _) (odd_ncond0 t h0) (odd_cond1 t h0) (iblk1 V c 0 t) (iblk1 V c 1 t) (iblk1 V c 2 t) (accE V c (prev t) (prev_even t h0))

/-- The output block's buffer after a position: what an odd position emits; at an even position, where the window is
    idle and not written back, a placeholder nothing consults. -/
def outAt (c : Dev nD) (t : Fin cfg1.N) : Vec F S1024x1024 .f32 :=
  if h0 : t.val % 2 = 0 then VO1_3.read (Elt F) VO1_3.junk
  else out_odd c (grid1.coords t) (ms1_0 t) (hs1_0 t) (ms1_1 t) (hs1_1 t) (ms1_2 t) (hs1_2 t) (ms1_3 t) (hs1_3 t) scM1_0 (Memref.isWhole_whole _) (odd_ncond0 t h0) (odd_cond1 t h0) (iblk1 V c 0 t) (iblk1 V c 1 t) (iblk1 V c 2 t) (accE V c (prev t) (prev_even t h0))

theorem accAt_even (c : Dev nD) (t : Fin cfg1.N) (h0 : t.val % 2 = 0) : accAt V c t = accE V c t h0 := dif_pos h0
theorem accAt_odd (c : Dev nD) (t : Fin cfg1.N) (h0 : ¬t.val % 2 = 0) :
    accAt V c t = acc_odd c (grid1.coords t) (ms1_0 t) (hs1_0 t) (ms1_1 t) (hs1_1 t) (ms1_2 t) (hs1_2 t) (ms1_3 t) (hs1_3 t) scM1_0 (Memref.isWhole_whole _) (odd_ncond0 t h0) (odd_cond1 t h0) (iblk1 V c 0 t) (iblk1 V c 1 t) (iblk1 V c 2 t) (accE V c (prev t) (prev_even t h0)) := dif_neg h0
theorem outAt_odd (c : Dev nD) (t : Fin cfg1.N) (h0 : ¬t.val % 2 = 0) :
    outAt V c t = out_odd c (grid1.coords t) (ms1_0 t) (hs1_0 t) (ms1_1 t) (hs1_1 t) (ms1_2 t) (hs1_2 t) (ms1_3 t) (hs1_3 t) scM1_0 (Memref.isWhole_whole _) (odd_ncond0 t h0) (odd_cond1 t h0) (iblk1 V c 0 t) (iblk1 V c 1 t) (iblk1 V c 2 t) (accE V c (prev t) (prev_even t h0)) := dif_neg h0

/-- The region's invariant before position `n`: before the first point the class's (the accumulator at anything);
    afterwards the accumulator at what the point before left. -/
def PhiS (c : Dev nD) : (n : ℕ) → n ≤ cfg1.N → sProp 𝕄
  | 0, _ => Pipeline.ΦA spec1 c
  | n + 1, hn => withAcc (F := F) c (owns (c : Thread nD τ) scM1_0 fullShare (accAt V c ⟨n, hn⟩))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = withAcc (F := F) c (owns (c : Thread nD τ) scM1_0 fullShare (accAt V c ⟨n, hn⟩)) := rfl
theorem PhiS_pos (c : Dev nD) (n : ℕ) (h : n ≤ cfg1.N) (hz : n ≠ 0) :
    PhiS V c n h = withAcc (F := F) c (owns (c : Thread nD τ) scM1_0 fullShare (accAt V c ⟨n - 1, by omega⟩)) := by
  cases n with
  | zero => exact absurd rfl hz
  | succ n => rfl

/-- Whatever the position, the invariant holds the accumulator at SOME contents. -/
theorem PhiS_some (c : Dev nD) (n : ℕ) (h : n ≤ cfg1.N) :
    PhiS V c n h ⊢ withAcc (F := F) c iprop(∃ d, owns (c : Thread nD τ) scM1_0 fullShare d) := by
  cases n with
  | zero => rw [PhiS_zero V c 0 h rfl, PhiA1_eq]
  | succ n =>
    rw [PhiS_succ]
    refine withAcc_mono c ?_
    iintro H; iexists _; iexact H

/-! ## The proof data -/

/-- The region's proof data on core `c`: the arrays as the region finds them; after the body each input's buffer at
    its block and the output's at `outAt`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the parity of the position says which case it is in.
    At an even position the accumulator is taken at whatever it holds and given back at that position's contents, and
    the output's buffer is handed back as found; at an odd position the accumulator is taken at what the even position
    before left, and both it and the output's buffer are given back at this position's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Phi_castSucc V c t]
  by_cases h0 : t.val % 2 = 0
  · rw [Dat.leavesExact_idle (dat1 V c) 3 t (idleAt1_3_even t (even_cond0 t h0) (even_ncond1 t h0)) (noFlush1_3_even t (even_cond0 t h0) (even_ncond1 t h0))]
    rw [show accAt V c ⟨t.val, t.isLt⟩ = accE V c t h0 from accAt_even V c t h0]
    unfold accE acc_even
    iintro ⟨HΦ, Ho, ⟨%d0, H0⟩, ⟨%d1, H1⟩, ⟨%d2, H2⟩, ⟨%d3, H3⟩⟩
    ihave HΦ' := (PhiS_some V c t.val (Nat.le_of_lt t.isLt)) $$ HΦ
    unfold withAcc
    icases HΦ' with ⟨⟨HR0, HR1, HR2, HR3, HS0⟩, Hg⟩
    iapply ((matmulRun_even c (grid1.coords t) (ms1_0 t) (hs1_0 t) (ms1_1 t) (hs1_1 t) (ms1_2 t) (hs1_2 t) (ms1_3 t) (hs1_3 t) scM1_0 (Memref.isWhole_whole _) (even_cond0 t h0) (even_ncond1 t h0) (iblk1 V c 0 t) (iblk1 V c 1 t)).2 _ _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HR0 HR1 HR2 HR3 HS0 Hg]
    · isplitr [Hg]
      · isplitl [HR0]; · iexact HR0
        isplitl [HR1]; · iexact HR1
        isplitl [HR2]; · iexact HR2
        isplitl [HR3]; · iexact HR3
        unfold owns; iexists _; isplitr
        swap; · iexact HS0
        ipureintro; exact View.read_writes_of_cover _ _ _ _ _ (scover_even c _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [show (dat1 V c).leavesExact 3 t = owns (c : Thread nD τ) (ms1_3 t) fullShare ((dat1 V c).after 3 t) from by
      unfold Dat.leavesExact; rw [liveAt1_3_odd t (odd_ncond0 t h0) (odd_cond1 t h0)], after1_3]
    rw [show accAt V c ⟨t.val, t.isLt⟩ = _ from accAt_odd V c t h0, outAt_odd V c t h0]
    unfold out_odd acc_odd
    rw [PhiS_pos V c _ _ hz, show accAt V c ⟨t.val - 1, _⟩ = accE V c (prev t) (prev_even t h0) from accAt_even V c (prev t) (prev_even t h0)]
    unfold withAcc
    iintro ⟨⟨⟨HR0, HR1, HR2, HR3, HS0⟩, Hg⟩, Ho, ⟨%d0, H0⟩, ⟨%d1, H1⟩, ⟨%d2, H2⟩, ⟨%d3, H3⟩⟩
    iapply ((matmulRun_odd c (grid1.coords t) (ms1_0 t) (hs1_0 t) (ms1_1 t) (hs1_1 t) (ms1_2 t) (hs1_2 t) (ms1_3 t) (hs1_3 t) scM1_0 (Memref.isWhole_whole _) (odd_ncond0 t h0) (odd_cond1 t h0) (iblk1 V c 0 t) (iblk1 V c 1 t) (iblk1 V c 2 t) (accE V c (prev t) (prev_even t h0))).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HR0 HR1 HR2 HR3 HS0 Hg]
    · isplitr [Hg]
      · isplitl [HR0]; · iexact HR0
        isplitl [HR1]; · iexact HR1
        isplitl [HR2]; · iexact HR2
        isplitl [HR3]; · iexact HR3
        unfold owns; iexists _; isplitr
        swap; · iexact HS0
        ipureintro; exact View.read_writes_of_cover _ _ _ _ _ (scover_odd c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover_odd c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS V c cfg1.N (Nat.le_refl _) from rfl, PhiA1_eq]
  exact PhiS_some V c _ _

end Cert.KernelIdeal.Hand

end
-- ==== Proof.XnorRun.lean ====
/-
  The whole program as a chain of segments — the weight-preparation region, the reshape of the bias on the host, the
  accumulating-product region — launched from any memory with zero counters.

  Between two segments the state of a core is "every unscoped buffer whole at a known valuation, the generator
  register at some state, nothing owed". The valuations are a fold from the launch memory: a region overwrites its
  windows' arrays with what its write-backs leave (the proof data's final arrays) and leaves every other buffer
  alone; the host stretch applies its one operation. At the end every unscoped buffer is read against the final
  state, so the run's post names the final contents of every buffer of the program at once: the arguments (which no
  segment writes) and the result.
-/
import proofs.«118526_j5781025980877_1_alg».proof.Proof.PrepFrame
import proofs.«118526_j5781025980877_1_alg».proof.Proof.MatmulFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 (c : Dev nD) : Valuation τ sig (Elt F) := fun b => m (c, b)
abbrev V0 : (c : Dev nD) → (b : Ref sig .tc) → Buf (Elt F) ((c : Thread nD τ).loc b) := fun c b => W0 m c b

/-- After the weight-preparation region: its arrays at what the pipeline leaves, the rest as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host's reshape of the bias. -/
abbrev W2 (c : Dev nD) : Valuation τ sig (Elt F) := StableHlo.after hostOps1 (W1 m c)
abbrev V2 : (c : Dev nD) → (b : Ref sig .tc) → Buf (Elt F) ((c : Thread nD τ).loc b) := fun c b => W2 m c b

/-- After the accumulating-product region. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched, and the result is the last region's final array -/

/-- The activations: an input window of the last region, untouched by the host stretch and by the first region. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W0 m c (Proc.devRef .tc main_arg0) := W1_of_ne m c main_arg0 (by decide)
    _ = m ((c : Thread nD τ).loc main_arg0) := rfl

/-- The full-precision weights: the first region's input window; the others bypass them. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.Forall, StableHlo.reshape_writes, Finset.mem_singleton]
          exact StableHlo.devRef_ne_of_ne (by decide)))
    _ = W0 m c (Proc.devRef .tc main_arg1) := (W1_arr m c 0).trans (((dat0 (V0 m) c).arrAt_in 0 rfl _).trans (A_eq0 (V0 m) c 0))
    _ = m ((c : Thread nD τ).loc main_arg1) := rfl

/-- The bias: read by the host's reshape only. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.Forall, StableHlo.reshape_writes, Finset.mem_singleton]
          exact StableHlo.devRef_ne_of_ne (by decide)))
    _ = W0 m c (Proc.devRef .tc main_arg2) := W1_of_ne m c main_arg2 (by decide)
    _ = m ((c : Thread nD τ).loc main_arg2) := rfl

/-- The result: the last region's output array after all its write-backs. -/
theorem W3_main_v2 (c : Dev nD) : W3 m c (Proc.devRef .tc main_v2) = (dat1 (V2 m) c).arrAt 3 cfg1.N := W3_arr m c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor
/-- The host stretch as a segment over the unscoped references. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The weight-preparation region: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The accumulating-product region: entered from every unscoped buffer at `W2`, left at `W3`. The generator
    register and the scoped rest enter the region's invariant as the class's and come back as the class's: what the
    accumulator held is forgotten at the exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V2 m) c
    unfold Pipeline.ΦA at h
    rw [show (pdats m 1 c).Φ 0 = (dat1 (V2 m) c).Φ 0 from rfl]
    iintro ⟨Hp, -, Hr⟩
    iapply h
    isplitl [Hr]; · iexact Hr
    iexact Hp
  hout c := by
    rw [Pipeline.ownSems0_none]
    have h := hout1 (V2 m) c
    unfold Pipeline.ΦA at h
    rw [show (pdats m 1 c).Φ (Fin.last _) = (dat1 (V2 m) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg1 m),
    .region (reg1 m) ]
/-- The program IS the run of the segments. -/
theorem main_run (c : Dev nD) : main (F := F) c = Pipeline.Seg.run (segs m) := (main_chain c).trans (by chain_rfl)

set_option backward.isDefEq.respectTransparency.types false in
/-- From any memory with zero counters every weakly fair execution of the program terminates, nothing faulting, and
    in every final state every unscoped buffer of every core holds the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

/-- The frame and the result: the result array ends at the last region's final array. -/
theorem run_value : θ_run defs (onTc (τ := τ) (main (F := F))) ⟨m, fun _ => 0, ρ⟩ (fun r => ∀ c : Dev nD,
      r.2.mem ((c.tc : Thread nD τ).loc main_v2) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2 (by decide))).trans (W3_main_v2 m c),
     (h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

end Cert.KernelIdeal.Hand

end
-- ==== Proof.PrepFrameBits.lean ====
import proofs.«118526_j5781025980877_1_alg».proof.Proof.Gen.Kernel.Launch
import proofs.«118526_j5781025980877_1_alg».proof.Proof.Gen.Kernel.Skeleton
import proofs.«118526_j5781025980877_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The weight-preparation region: its frame half at any float instance

The first region of the program turns the full-precision weight matrix into its prepared form, eight
row blocks of 512 × 4096 at a time. Its body reads one block of the input, computes one pure value from
it, and overwrites the whole output block with that value. This module states, at any buffer contents
`V` found when the region is entered: what each window's block is at a grid point, what the body leaves
in the output block as a function of the input block, the body's Hoare triple, the pipeline's proof data
and the body obligation of the launch theorem. Nothing here looks inside the arithmetic. -/

-- membership of an index in a 512 × 4096 rectangle is looked at structurally, once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`: the rows `512 t … 512 t + 511` of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose input array
    is `V`'s and whose body leaves the input block in place: the window is fetched at a point exactly when its block
    index moves, it is never cut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's one rectangle -/

/-- The whole 512 × 4096 block, as the rectangle the body loads and stores through. -/
abbrev r0_0 : Rect S512x4096 := Rect.unit (s := S512x4096) ![0, 0] S512x4096.size inb_S512x4096_S512x4096_0_0

/-! ## What the body leaves in the output block -/

/-- The output block after the body, from the input block: one store of the prepared value over the whole block. -/
def out0_1 (x0 : Vec F S512x4096 .f32) : Vec F S512x4096 .bf16 :=
  View.canon [⟨r0_0, k0_pay1 (View.ld x0 r0_0)⟩]

/-- The one store covers the block: every index of the block lies in the whole-block rectangle. -/
theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

/-! ## The body's triple -/

set_option maxHeartbeats 1000000 in
/-- The body on whole staging buffers, the input's at contents `x0` and the output's at anything, runs to a state with
    the input's buffer unchanged and the output's at `out0_1 x0`. The body also reads the output buffer before it
    stores (a read whose value is never used), which the unknown contents `d` allow. -/
theorem sound_kernel0 (c : Dev nD) (E : Set ℕ) (i : grid0.Coords) (arg1 : Memref sig .tc .vmem S512x4096 .f32) (harg1 : arg1.IsWhole)
    (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__weight_prep_kernel i arg1 harg1 arg2 harg2) K := by
  simp only [cc0__weight_prep_kernel_eq_skeleton]; unfold cc0__weight_prep_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the region on core `c`: the arrays as the region finds them; after the body at point `t` the
    input's buffer still at its block and the output's at `out0_1` of that block; the invariant is the untouched rest
    of the core (the other region's staging buffers and scratch, the generator register); nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.MatmulRunsBits.lean ====
/-
  The accumulating product (the second kernel region): what its runs share.

  The region walks a grid of 16 × 4 × 2 points (row block i, column block j, half k of the contracted axis, k
  innermost). A point's body adds the product of the signed activations' block (i, k) with the prepared weights'
  block (j, k) into an accumulator it keeps between points: at k = 0 it first clears the accumulator, at k = 1 it
  adds the bias row and stores the sum into the output block (i, j), which is written back only there. So a point is
  in one of two cases, decided by the parity of its position: even positions clear and add, odd positions add and
  emit. Stated here, at the buffer contents V the region is entered with: each window's block at a point, that an
  input window's buffer holds its block whether fetched there or not, the two conditions in closed form, where the
  output window is idle, and the region's invariant with the accumulator split out.
-/
import proofs.«118526_j5781025980877_1_alg».proof.Proof.Gen.Kernel.Launch
import proofs.«118526_j5781025980877_1_alg».proof.Proof.Gen.Kernel.Skeleton
import proofs.«118526_j5781025980877_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' window holds its block at every point, for any proof data over `V` whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' window likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's window likewise: it is fetched only when the column block changes, and between two fetches its
    block index does not move. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions, in closed form -/

/-- "This is the first half of the contracted axis": the body clears the accumulator. -/
abbrev cond1_0 (i : grid1.Coords) : Prop := (Scalar.cmpi .ne (Scalar.extui (Scalar.cmpi .eq (BitVec.ofNat 32 (i 2).val) 0#32)) 0#32) = 1#1
/-- It holds exactly at the even positions (k is the innermost coordinate, of extent 2). -/
theorem hcond1_0 : ∀ t : Fin cfg1.N, cond1_0 (grid1.coords t) ↔ t.val % 2 = 0 :=
  (by decide +kernel : ∀ t : Fin grid1.N, cond1_0 (grid1.coords t) ↔ t.val % 2 = 0)

/-- "This is the last half": the body adds the bias and stores the output block. -/
abbrev cond1_1 (i : grid1.Coords) : Prop := k1_cond2 i = 1#1
/-- It holds exactly at the odd positions. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At an even position nothing is stored into the output window, -/
theorem idleAt1_3_even : ∀ t : Fin cfg1.N, cond1_0 (grid1.coords t) → ¬cond1_1 (grid1.coords t) → cfg1.idle 3 (grid1.coords t) = true := by decide +kernel
/-- and its block is not written back there. -/
theorem noFlush1_3_even : ∀ t : Fin cfg1.N, cond1_0 (grid1.coords t) → ¬cond1_1 (grid1.coords t) → (cfg1.win 3).flush t = false := by decide +kernel
/-- At an odd position the output window is stored. -/
theorem liveAt1_3_odd : ∀ t : Fin cfg1.N, ¬cond1_0 (grid1.coords t) → cond1_1 (grid1.coords t) → cfg1.idle 3 (grid1.coords t) = false := by decide +kernel

/-! ## The staging memrefs at a point, the accumulator, and the invariant -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x1024 .f32 := Memref.whole cc1_scratch0
/-- One staging buffer of the output window, and the accumulator, as views: contents are stated through them. -/
abbrev VO1_3 : View sig .tc .vmem S1024x1024 .f32 := (Memref.whole cc1_stg3_0 : Memref sig .tc .vmem S1024x1024 .f32).view
abbrev VS1_0 : View sig .tc .vmem S1024x1024 .f32 := scM1_0.view

/-- The region's scoped rest with the accumulator described by `P`: the scoped buffers the region never touches
    (the first region's staging buffers) at anything, then the accumulator, and beside them the generator register at
    some state. -/
def withAcc (c : Dev nD) (P : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ P) ∗ (∃ r, prngReg c r))

/-- The class's invariant is the scoped rest with the accumulator at some contents. -/
theorem PhiA1_eq (c : Dev nD) :
    (Pipeline.ΦA spec1 c : sProp 𝕄) = withAcc (F := F) c iprop(∃ d, owns (c : Thread nD τ) scM1_0 fullShare d) := by
  unfold Pipeline.ΦA withAcc; rw [scopedRest1_eq]; simp only [scM1_0, owns_whole]; try rfl

/-- Weakening what is said of the accumulator. -/
theorem withAcc_mono (c : Dev nD) {P Q : sProp 𝕄} (h : P ⊢ Q) : withAcc (F := F) c P ⊢ withAcc (F := F) c Q := by
  unfold withAcc
  iintro ⟨⟨H0, H1, H2, H3, HP⟩, Hg⟩
  isplitr [Hg]
  · isplitl [H0]; · iexact H0
    isplitl [H1]; · iexact H1
    isplitl [H2]; · iexact H2
    isplitl [H3]; · iexact H3
    iapply h; iexact HP
  iexact Hg

end Cert.Kernel.Hand

end
-- ==== Proof.MatmulRunEvenBits.lean ====
/-
  The accumulating product at an even position (the first half of the contracted axis): the body clears the
  accumulator, loads the activations' and the weights' blocks, adds their product into the accumulator, and stores
  nothing into the output window. What the accumulator is left with is found by running the body: a list of stored
  pieces, last first.
-/
import proofs.«118526_j5781025980877_1_alg».proof.Proof.MatmulRunsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- On whole staging memrefs — the activations' and the weights' at their blocks, the bias row's and the output's at
    whatever they hold (handed back untouched), the accumulator at anything — the body at a point of the first half
    runs to the continuation holding the inputs as they were and the accumulator with the found pieces written. -/
noncomputable def matmulRun_even (c : Dev nD) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : cond1_0 i) (hc1 : ¬cond1_1 i)
    (x0 : Vec F S1024x2048 .f32) (x1 : Vec F S1024x2048 .bf16) :
    { LS0 : List (View.Piece (Elt F) S1024x1024 .f32) //
      ∀ (x2 : Vec F S1x1024 .f32) (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun x2 xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.MatmulRunOddBits.lean ====
/-
  The accumulating product at an odd position (the last half of the contracted axis): the body loads the
  activations' and the weights' blocks, adds their product into the accumulator the point before left, then adds the
  bias row to the accumulator and stores the sum into the output block. What the output's buffer and the accumulator
  are left with is found by running the body: lists of stored pieces, last first.
-/
import proofs.«118526_j5781025980877_1_alg».proof.Proof.MatmulRunsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- On whole staging memrefs — the three inputs' at their blocks, the output's at anything, the accumulator at the
    contents `xs0` the point before left — the body at a point of the last half runs to the continuation holding the
    inputs as they were, and the output's buffer and the accumulator with the found pieces written. -/
noncomputable def matmulRun_odd (c : Dev nD) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : cond1_1 i)
    (x0 : Vec F S1024x2048 .f32) (x1 : Vec F S1024x2048 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.MatmulFrameBits.lean ====
/-
  The accumulating product: what the accumulator and the output block hold point by point, the region's proof data,
  and the body obligation at every point.

  Positions pair up: an even position 2n clears the accumulator and adds the product of the first halves, the odd
  position 2n + 1 adds the product of the second halves to what 2n left, adds the bias row and emits the block. So
  the accumulator after an even position is a function of that position's blocks alone, and after an odd position of
  its blocks and of the even position before it; no longer recursion is needed.
-/
import proofs.«118526_j5781025980877_1_alg».proof.Proof.MatmulRunEvenBits
import proofs.«118526_j5781025980877_1_alg».proof.Proof.MatmulRunOddBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-! ## What each case leaves -/

/-- At an even position the accumulator's stored pieces tile it. -/
theorem scover_even (c : Dev nD) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : cond1_0 i) (hc1 : ¬cond1_1 i)
    (x0 : Vec F S1024x2048 .f32) (x1 : Vec F S1024x2048 .bf16) (y : S1024x1024.Idx) :
    ∃ pc ∈ (matmulRun_even c i arg3 harg3 arg4 harg4 arg5 harg5 arg6 harg6 arg7 harg7 hc0 hc1 x0 x1).1, y ∈ pc.1.set :=
  View.cover_of_tiledL (matmulRun_even c i arg3 harg3 arg4 harg4 arg5 harg5 arg6 harg6 arg7 harg7 hc0 hc1 x0 x1).1 S1024x1024.size (by sl_kernel_rfl) y

/-- What an even position leaves in the accumulator: its pieces read back. -/
def acc_even (c : Dev nD) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : cond1_0 i) (hc1 : ¬cond1_1 i)
    (x0 : Vec F S1024x2048 .f32) (x1 : Vec F S1024x2048 .bf16) : Vec F S1024x1024 .f32 :=
  VS1_0.read (Elt F) (VS1_0.writes (Elt F) VS1_0.junk (matmulRun_even c i arg3 harg3 arg4 harg4 arg5 harg5 arg6 harg6 arg7 harg7 hc0 hc1 x0 x1).1)

/-- At an odd position the output block's stored pieces tile it, -/
theorem cover_odd (c : Dev nD) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : cond1_1 i)
    (x0 : Vec F S1024x2048 .f32) (x1 : Vec F S1024x2048 .bf16) (x2 : Vec F S1x1024 .f32) (xs0 : Vec F S1024x1024 .f32) (y : S1024x1024.Idx) :
    ∃ pc ∈ (matmulRun_odd c i arg3 harg3 arg4 harg4 arg5 harg5 arg6 harg6 arg7 harg7 hc0 hc1 x0 x1 x2 xs0).1, y ∈ pc.1.set :=
  View.cover_of_tiledL (matmulRun_odd c i arg3 harg3 arg4 harg4 arg5 harg5 arg6 harg6 arg7 harg7 hc0 hc1 x0 x1 x2 xs0).1 S1024x1024.size (by sl_kernel_rfl) y

/-- and so do the accumulator's. -/
theorem scover_odd (c : Dev nD) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : cond1_1 i)
    (x0 : Vec F S1024x2048 .f32) (x1 : Vec F S1024x2048 .bf16) (x2 : Vec F S1x1024 .f32) (xs0 : Vec F S1024x1024 .f32) (y : S1024x1024.Idx) :
    ∃ pc ∈ (matmulRun_odd c i arg3 harg3 arg4 harg4 arg5 harg5 arg6 harg6 arg7 harg7 hc0 hc1 x0 x1 x2 xs0).2.1, y ∈ pc.1.set :=
  View.cover_of_tiledL (matmulRun_odd c i arg3 harg3 arg4 harg4 arg5 harg5 arg6 harg6 arg7 harg7 hc0 hc1 x0 x1 x2 xs0).2.1 S1024x1024.size (by sl_kernel_rfl) y

/-- What an odd position leaves in the output block's buffer, -/
def out_odd (c : Dev nD) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : cond1_1 i)
    (x0 : Vec F S1024x2048 .f32) (x1 : Vec F S1024x2048 .bf16) (x2 : Vec F S1x1024 .f32) (xs0 : Vec F S1024x1024 .f32) : Vec F S1024x1024 .f32 :=
  VO1_3.read (Elt F) (VO1_3.writes (Elt F) VO1_3.junk (matmulRun_odd c i arg3 harg3 arg4 harg4 arg5 harg5 arg6 harg6 arg7 harg7 hc0 hc1 x0 x1 x2 xs0).1)

/-- and in the accumulator. -/
def acc_odd (c : Dev nD) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : cond1_1 i)
    (x0 : Vec F S1024x2048 .f32) (x1 : Vec F S1024x2048 .bf16) (x2 : Vec F S1x1024 .f32) (xs0 : Vec F S1024x1024 .f32) : Vec F S1024x1024 .f32 :=
  VS1_0.read (Elt F) (VS1_0.writes (Elt F) VS1_0.junk (matmulRun_odd c i arg3 harg3 arg4 harg4 arg5 harg5 arg6 harg6 arg7 harg7 hc0 hc1 x0 x1 x2 xs0).2.1)

/-! ## Point by point -/

theorem even_cond0 (t : Fin cfg1.N) (h0 : t.val % 2 = 0) : cond1_0 (grid1.coords t) := (hcond1_0 t).mpr h0
theorem even_ncond1 (t : Fin cfg1.N) (h0 : t.val % 2 = 0) : ¬cond1_1 (grid1.coords t) := fun h => by have := (hcond1_1 t).mp h; omega
theorem odd_ncond0 (t : Fin cfg1.N) (h0 : ¬t.val % 2 = 0) : ¬cond1_0 (grid1.coords t) := fun h => h0 ((hcond1_0 t).mp h)
theorem odd_cond1 (t : Fin cfg1.N) (h0 : ¬t.val % 2 = 0) : cond1_1 (grid1.coords t) := (hcond1_1 t).mpr (by omega)

/-- The point before an odd position, which is even. -/
def prev (t : Fin cfg1.N) : Fin cfg1.N := ⟨t.val - 1, Nat.lt_of_le_of_lt (Nat.sub_le _ _) t.isLt⟩
theorem prev_even (t : Fin cfg1.N) (h0 : ¬t.val % 2 = 0) : (prev t).val % 2 = 0 := by unfold prev; dsimp only; omega

/-- The accumulator after an even position: the product of the first halves over a cleared accumulator. -/
def accE (c : Dev nD) (t : Fin cfg1.N) (h0 : t.val % 2 = 0) : Vec F S1024x1024 .f32 :=
  acc_even c (grid1.coords t) (ms1_0 t) (hs1_0 t) (ms1_1 t) (hs1_1 t) (ms1_2 t) (hs1_2 t) (ms1_3 t) (hs1_3 t) scM1_0 (Memref.isWhole_whole _) (even_cond0 t h0) (even_ncond1 t h0) (iblk1 V c 0 t) (iblk1 V c 1 t)

/-- The accumulator after any position. -/
def accAt (c : Dev nD) (t : Fin cfg1.N) : Vec F S1024x1024 .f32 :=
  if h0 : t.val % 2 = 0 then accE V c t h0
  else acc_odd c (grid1.coords t) (ms1_0 t) (hs1_0 t) (ms1_1 t) (hs1_1 t) (ms1_2 t) (hs1_2 t) (ms1_3 t) (hs1_3 t) scM1_0 (Memref.isWhole_whole _) (odd_ncond0 t h0) (odd_cond1 t h0) (iblk1 V c 0 t) (iblk1 V c 1 t) (iblk1 V c 2 t) (accE V c (prev t) (prev_even t h0))

/-- The output block's buffer after a position: what an odd position emits; at an even position, where the window is
    idle and not written back, a placeholder nothing consults. -/
def outAt (c : Dev nD) (t : Fin cfg1.N) : Vec F S1024x1024 .f32 :=
  if h0 : t.val % 2 = 0 then VO1_3.read (Elt F) VO1_3.junk
  else out_odd c (grid1.coords t) (ms1_0 t) (hs1_0 t) (ms1_1 t) (hs1_1 t) (ms1_2 t) (hs1_2 t) (ms1_3 t) (hs1_3 t) scM1_0 (Memref.isWhole_whole _) (odd_ncond0 t h0) (odd_cond1 t h0) (iblk1 V c 0 t) (iblk1 V c 1 t) (iblk1 V c 2 t) (accE V c (prev t) (prev_even t h0))

theorem accAt_even (c : Dev nD) (t : Fin cfg1.N) (h0 : t.val % 2 = 0) : accAt V c t = accE V c t h0 := dif_pos h0
theorem accAt_odd (c : Dev nD) (t : Fin cfg1.N) (h0 : ¬t.val % 2 = 0) :
    accAt V c t = acc_odd c (grid1.coords t) (ms1_0 t) (hs1_0 t) (ms1_1 t) (hs1_1 t) (ms1_2 t) (hs1_2 t) (ms1_3 t) (hs1_3 t) scM1_0 (Memref.isWhole_whole _) (odd_ncond0 t h0) (odd_cond1 t h0) (iblk1 V c 0 t) (iblk1 V c 1 t) (iblk1 V c 2 t) (accE V c (prev t) (prev_even t h0)) := dif_neg h0
theorem outAt_odd (c : Dev nD) (t : Fin cfg1.N) (h0 : ¬t.val % 2 = 0) :
    outAt V c t = out_odd c (grid1.coords t) (ms1_0 t) (hs1_0 t) (ms1_1 t) (hs1_1 t) (ms1_2 t) (hs1_2 t) (ms1_3 t) (hs1_3 t) scM1_0 (Memref.isWhole_whole _) (odd_ncond0 t h0) (odd_cond1 t h0) (iblk1 V c 0 t) (iblk1 V c 1 t) (iblk1 V c 2 t) (accE V c (prev t) (prev_even t h0)) := dif_neg h0

/-- The region's invariant before position `n`: before the first point the class's (the accumulator at anything);
    afterwards the accumulator at what the point before left. -/
def PhiS (c : Dev nD) : (n : ℕ) → n ≤ cfg1.N → sProp 𝕄
  | 0, _ => Pipeline.ΦA spec1 c
  | n + 1, hn => withAcc (F := F) c (owns (c : Thread nD τ) scM1_0 fullShare (accAt V c ⟨n, hn⟩))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = withAcc (F := F) c (owns (c : Thread nD τ) scM1_0 fullShare (accAt V c ⟨n, hn⟩)) := rfl
theorem PhiS_pos (c : Dev nD) (n : ℕ) (h : n ≤ cfg1.N) (hz : n ≠ 0) :
    PhiS V c n h = withAcc (F := F) c (owns (c : Thread nD τ) scM1_0 fullShare (accAt V c ⟨n - 1, by omega⟩)) := by
  cases n with
  | zero => exact absurd rfl hz
  | succ n => rfl

/-- Whatever the position, the invariant holds the accumulator at SOME contents. -/
theorem PhiS_some (c : Dev nD) (n : ℕ) (h : n ≤ cfg1.N) :
    PhiS V c n h ⊢ withAcc (F := F) c iprop(∃ d, owns (c : Thread nD τ) scM1_0 fullShare d) := by
  cases n with
  | zero => rw [PhiS_zero V c 0 h rfl, PhiA1_eq]
  | succ n =>
    rw [PhiS_succ]
    refine withAcc_mono c ?_
    iintro H; iexists _; iexact H

/-! ## The proof data -/

/-- The region's proof data on core `c`: the arrays as the region finds them; after the body each input's buffer at
    its block and the output's at `outAt`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the parity of the position says which case it is in.
    At an even position the accumulator is taken at whatever it holds and given back at that position's contents, and
    the output's buffer is handed back as found; at an odd position the accumulator is taken at what the even position
    before left, and both it and the output's buffer are given back at this position's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Phi_castSucc V c t]
  by_cases h0 : t.val % 2 = 0
  · rw [Dat.leavesExact_idle (dat1 V c) 3 t (idleAt1_3_even t (even_cond0 t h0) (even_ncond1 t h0)) (noFlush1_3_even t (even_cond0 t h0) (even_ncond1 t h0))]
    rw [show accAt V c ⟨t.val, t.isLt⟩ = accE V c t h0 from accAt_even V c t h0]
    unfold accE acc_even
    iintro ⟨HΦ, Ho, ⟨%d0, H0⟩, ⟨%d1, H1⟩, ⟨%d2, H2⟩, ⟨%d3, H3⟩⟩
    ihave HΦ' := (PhiS_some V c t.val (Nat.le_of_lt t.isLt)) $$ HΦ
    unfold withAcc
    icases HΦ' with ⟨⟨HR0, HR1, HR2, HR3, HS0⟩, Hg⟩
    iapply ((matmulRun_even c (grid1.coords t) (ms1_0 t) (hs1_0 t) (ms1_1 t) (hs1_1 t) (ms1_2 t) (hs1_2 t) (ms1_3 t) (hs1_3 t) scM1_0 (Memref.isWhole_whole _) (even_cond0 t h0) (even_ncond1 t h0) (iblk1 V c 0 t) (iblk1 V c 1 t)).2 _ _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HR0 HR1 HR2 HR3 HS0 Hg]
    · isplitr [Hg]
      · isplitl [HR0]; · iexact HR0
        isplitl [HR1]; · iexact HR1
        isplitl [HR2]; · iexact HR2
        isplitl [HR3]; · iexact HR3
        unfold owns; iexists _; isplitr
        swap; · iexact HS0
        ipureintro; exact View.read_writes_of_cover _ _ _ _ _ (scover_even c _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [show (dat1 V c).leavesExact 3 t = owns (c : Thread nD τ) (ms1_3 t) fullShare ((dat1 V c).after 3 t) from by
      unfold Dat.leavesExact; rw [liveAt1_3_odd t (odd_ncond0 t h0) (odd_cond1 t h0)], after1_3]
    rw [show accAt V c ⟨t.val, t.isLt⟩ = _ from accAt_odd V c t h0, outAt_odd V c t h0]
    unfold out_odd acc_odd
    rw [PhiS_pos V c _ _ hz, show accAt V c ⟨t.val - 1, _⟩ = accE V c (prev t) (prev_even t h0) from accAt_even V c (prev t) (prev_even t h0)]
    unfold withAcc
    iintro ⟨⟨⟨HR0, HR1, HR2, HR3, HS0⟩, Hg⟩, Ho, ⟨%d0, H0⟩, ⟨%d1, H1⟩, ⟨%d2, H2⟩, ⟨%d3, H3⟩⟩
    iapply ((matmulRun_odd c (grid1.coords t) (ms1_0 t) (hs1_0 t) (ms1_1 t) (hs1_1 t) (ms1_2 t) (hs1_2 t) (ms1_3 t) (hs1_3 t) scM1_0 (Memref.isWhole_whole _) (odd_ncond0 t h0) (odd_cond1 t h0) (iblk1 V c 0 t) (iblk1 V c 1 t) (iblk1 V c 2 t) (accE V c (prev t) (prev_even t h0))).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HR0 HR1 HR2 HR3 HS0 Hg]
    · isplitr [Hg]
      · isplitl [HR0]; · iexact HR0
        isplitl [HR1]; · iexact HR1
        isplitl [HR2]; · iexact HR2
        isplitl [HR3]; · iexact HR3
        unfold owns; iexists _; isplitr
        swap; · iexact HS0
        ipureintro; exact View.read_writes_of_cover _ _ _ _ _ (scover_odd c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover_odd c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS V c cfg1.N (Nat.le_refl _) from rfl, PhiA1_eq]
  exact PhiS_some V c _ _

end Cert.Kernel.Hand

end
-- ==== Proof.XnorRunBits.lean ====
/-
  The whole program as a chain of segments — the weight-preparation region, the reshape of the bias on the host, the
  accumulating-product region — launched from any memory with zero counters.

  Between two segments the state of a core is "every unscoped buffer whole at a known valuation, the generator
  register at some state, nothing owed". The valuations are a fold from the launch memory: a region overwrites its
  windows' arrays with what its write-backs leave (the proof data's final arrays) and leaves every other buffer
  alone; the host stretch applies its one operation. At the end every unscoped buffer is read against the final
  state, so the run's post names the final contents of every buffer of the program at once: the arguments (which no
  segment writes) and the result.
-/
import proofs.«118526_j5781025980877_1_alg».proof.Proof.PrepFrameBits
import proofs.«118526_j5781025980877_1_alg».proof.Proof.MatmulFrameBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 (c : Dev nD) : Valuation τ sig (Elt F) := fun b => m (c, b)
abbrev V0 : (c : Dev nD) → (b : Ref sig .tc) → Buf (Elt F) ((c : Thread nD τ).loc b) := fun c b => W0 m c b

/-- After the weight-preparation region: its arrays at what the pipeline leaves, the rest as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host's reshape of the bias. -/
abbrev W2 (c : Dev nD) : Valuation τ sig (Elt F) := StableHlo.after hostOps1 (W1 m c)
abbrev V2 : (c : Dev nD) → (b : Ref sig .tc) → Buf (Elt F) ((c : Thread nD τ).loc b) := fun c b => W2 m c b

/-- After the accumulating-product region. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched, and the result is the last region's final array -/

/-- The activations: an input window of the last region, untouched by the host stretch and by the first region. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W0 m c (Proc.devRef .tc main_arg0) := W1_of_ne m c main_arg0 (by decide)
    _ = m ((c : Thread nD τ).loc main_arg0) := rfl

/-- The full-precision weights: the first region's input window; the others bypass them. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.Forall, StableHlo.reshape_writes, Finset.mem_singleton]
          exact StableHlo.devRef_ne_of_ne (by decide)))
    _ = W0 m c (Proc.devRef .tc main_arg1) := (W1_arr m c 0).trans (((dat0 (V0 m) c).arrAt_in 0 rfl _).trans (A_eq0 (V0 m) c 0))
    _ = m ((c : Thread nD τ).loc main_arg1) := rfl

/-- The bias: read by the host's reshape only. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.Forall, StableHlo.reshape_writes, Finset.mem_singleton]
          exact StableHlo.devRef_ne_of_ne (by decide)))
    _ = W0 m c (Proc.devRef .tc main_arg2) := W1_of_ne m c main_arg2 (by decide)
    _ = m ((c : Thread nD τ).loc main_arg2) := rfl

/-- The result: the last region's output array after all its write-backs. -/
theorem W3_main_v2 (c : Dev nD) : W3 m c (Proc.devRef .tc main_v2) = (dat1 (V2 m) c).arrAt 3 cfg1.N := W3_arr m c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor
/-- The host stretch as a segment over the unscoped references. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The weight-preparation region: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The accumulating-product region: entered from every unscoped buffer at `W2`, left at `W3`. The generator
    register and the scoped rest enter the region's invariant as the class's and come back as the class's: what the
    accumulator held is forgotten at the exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V2 m) c
    unfold Pipeline.ΦA at h
    rw [show (pdats m 1 c).Φ 0 = (dat1 (V2 m) c).Φ 0 from rfl]
    iintro ⟨Hp, -, Hr⟩
    iapply h
    isplitl [Hr]; · iexact Hr
    iexact Hp
  hout c := by
    rw [Pipeline.ownSems0_none]
    have h := hout1 (V2 m) c
    unfold Pipeline.ΦA at h
    rw [show (pdats m 1 c).Φ (Fin.last _) = (dat1 (V2 m) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg1 m),
    .region (reg1 m) ]
/-- The program IS the run of the segments. -/
theorem main_run (c : Dev nD) : main (F := F) c = Pipeline.Seg.run (segs m) := (main_chain c).trans (by chain_rfl)

set_option backward.isDefEq.respectTransparency.types false in
/-- From any memory with zero counters every weakly fair execution of the program terminates, nothing faulting, and
    in every final state every unscoped buffer of every core holds the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

/-- The frame and the result: the result array ends at the last region's final array. -/
theorem run_value : θ_run defs (onTc (τ := τ) (main (F := F))) ⟨m, fun _ => 0, ρ⟩ (fun r => ∀ c : Dev nD,
      r.2.mem ((c.tc : Thread nD τ).loc main_v2) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2 (by decide))).trans (W3_main_v2 m c),
     (h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

end Cert.Kernel.Hand

end
-- ==== Proof.XnorBoundary.lean ====
/-
  What the accumulating-product region finds when it is entered, read back to the launch memory: the activations as
  launched (nothing before it writes them), the prepared weights at what the first region left, and the bias row as
  the host's reshape of the launched bias.
-/
import proofs.«118526_j5781025980877_1_alg».proof.Proof.XnorRun
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem V2_main_arg0 (c : Dev nD) : V2 m c main_arg0 = m ((c : Thread nD τ).loc main_arg0) :=
  calc W2 m c (Proc.devRef .tc main_arg0)
    _ = W1 m c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W0 m c (Proc.devRef .tc main_arg0) := W1_of_ne m c main_arg0 (by decide)
    _ = m ((c : Thread nD τ).loc main_arg0) := rfl

theorem V2_main_v0 (c : Dev nD) : V2 m c main_v0 = (dat0 (V0 m) c).arrAt 1 cfg0.N :=
  calc W2 m c (Proc.devRef .tc main_v0)
    _ = W1 m c (Proc.devRef .tc main_v0) := StableHlo.after_of_forall_not_mem (b := Proc.devRef .tc main_v0) _ _ (List.forall_iff_forall_mem.mp (by
          simp only [hostOps1, List.Forall, StableHlo.reshape_writes, Finset.mem_singleton]
          exact StableHlo.devRef_ne_of_ne (by decide)))
    _ = (dat0 (V0 m) c).arrAt 1 cfg0.N := W1_arr m c 1

theorem W1_main_arg2 (c : Dev nD) : W1 m c (Proc.devRef .tc main_arg2) = m ((c : Thread nD τ).loc main_arg2) :=
  (W1_of_ne m c main_arg2 (by decide)).trans rfl

theorem V2_main_v1 (c : Dev nD) : (V2 m c main_v1 : S1x4096.Idx → Elt F .f32) = shapeCast S1x4096 (m ((c : Thread nD τ).loc main_arg2)) shapeCasts_S4096_S1x4096 := by
  rw [← W1_main_arg2 m c]
  show StableHlo.after hostOps1 (W1 m c) (Proc.devRef .tc main_v1) = _
  after_results
  rfl

end Cert.KernelIdeal.Hand

end
-- ==== Proof.Spec.lean ====
/-
  The function both programs compute, stated once over extended reals and with no program in sight.

  A weight row `r` of 4096 entries is prepared in four steps: its mean `(Σ r) / 4096` is taken off every entry; the
  centred entries are clipped to `[-1, 1]`; the mean of the absolute values of the clipped entries is the row's
  scale; and the prepared entry is the sign of the clipped entry times that scale. The layer's output at row `t`
  of the activations and output feature `o` is the sum over the 4096 input features `k` of the sign of the
  activation `(t, k)` times the prepared weight `(o, k)`, plus the bias of `o`.

  The constants 4096, -1 and 1 are kept as the words the two programs write (`0x45800000`, `0xBF800000`,
  `0x3F800000`): the same word stands on both sides of every equation, so none is ever evaluated.
-/
import Idealize.ShloMosaic.PureOps.Ideal
import Idealize.ShloMosaic.Lib.ValueIdx
import Mathlib.Algebra.BigOperators.Fin

noncomputable section

namespace Cert.Xnor

open Idealize.ShloMosaic Idealize.ShloMosaic.ValueIdx

/-- The sign of an extended real: `-1` below zero (at `-∞` too), `0` at zero, `1` above zero (at `+∞` too). -/
def sgn (x : EReal) : EReal := Ideal.sign x

/-- Entry `k` of a row with the row's mean `(Σ r) / 4096` taken off. -/
def centred (r : Fin 4096 → EReal) (k : Fin 4096) : EReal :=
  r k - Ideal.div (∑ k', r k') (Ideal.ofBits .f32 0x45800000#32)

/-- The centred entry clipped to `[-1, 1]`: first raised to at least `-1`, then lowered to at most `1`. -/
def clipped (r : Fin 4096 → EReal) (k : Fin 4096) : EReal :=
  min (Ideal.ofBits .f32 0x3F800000#32) (max (Ideal.ofBits .f32 0xBF800000#32) (centred r k))

/-- The row's scale: the mean over the row of `|clipped entry|`, the absolute value written `max c (-c)`. -/
def meanAbs (r : Fin 4096 → EReal) : EReal :=
  Ideal.div (∑ k', max (clipped r k') (-(clipped r k'))) (Ideal.ofBits .f32 0x45800000#32)

/-- One prepared weight row: the sign of each clipped entry times the row's scale. -/
def wrow (r : Fin 4096 → EReal) : Fin 4096 → EReal := fun k => sgn (clipped r k) * meanAbs r

/-- The output at activation row `t` and output feature `o`. -/
def out (x : (⟨2, ![16384, 4096]⟩ : Shape).Idx → EReal) (fp : (⟨2, ![4096, 4096]⟩ : Shape).Idx → EReal)
    (b : (⟨1, ![4096]⟩ : Shape).Idx → EReal) (t : Fin 16384) (o : Fin 4096) : EReal :=
  (∑ k : Fin 4096, sgn (x (ix2 t k)) * wrow (fun k' => fp (ix2 o k')) k) + b (ix1 o)

/-- The whole output array as one function of the activations `x`, the full-precision weights `fp` and the bias `b`. -/
def G (x : (⟨2, ![16384, 4096]⟩ : Shape).Idx → EReal) (fp : (⟨2, ![4096, 4096]⟩ : Shape).Idx → EReal)
    (b : (⟨1, ![4096]⟩ : Shape).Idx → EReal) : (⟨2, ![16384, 4096]⟩ : Shape).Idx → EReal :=
  fun i => out x fp b ⟨(i 0).val, idx2_lt0 i⟩ ⟨(i 1).val, idx2_lt1 i⟩

/-- `G` read at the index with coordinates `(t, o)`. -/
theorem G_apply (x : (⟨2, ![16384, 4096]⟩ : Shape).Idx → EReal) (fp : (⟨2, ![4096, 4096]⟩ : Shape).Idx → EReal)
    (b : (⟨1, ![4096]⟩ : Shape).Idx → EReal) (r : Fin 16384) (o : Fin 4096) :
    G x fp b (ix2 r o)
      = (∑ k : Fin 4096, sgn (x (ix2 r k)) * wrow (fun k' => fp (ix2 o k')) k) + b (ix1 o) := rfl

/-- A sum over 4096 terms is the sum over the first 2048 plus the sum over the last 2048: the extended reals are a
    commutative monoid under addition, so no finiteness is asked. -/
theorem sum_halves (f : Fin 4096 → EReal) :
    ∑ k, f k = (∑ k : Fin 2048, f ⟨k.val, by omega⟩) + ∑ k : Fin 2048, f ⟨2048 + k.val, by omega⟩ :=
  Fin.sum_univ_add (M := EReal) (a := 2048) (b := 2048) f

end Cert.Xnor

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.PrepPayload.lean ====
/-
  The weight-preparation kernel's stored value, read at one element of its 512 × 4096 block.

  Every row of the block is treated alone. The lane sum of row `p`, kept as a column and divided by 4096, is the row's
  mean; broadcast back over the 4096 lanes and subtracted it centres the row; the centred entries are raised to at
  least `-1` and lowered to at most `1`; the lane sum of their absolute values over 4096 is the row's scale; and the
  stored entry is the sign of the clipped entry times the scale, narrowed to sixteen bits, which at the exact values is
  no change. That is the prepared row `Cert.Xnor.wrow` of the block's row `p`, at lane `q`.
-/
import proofs.«118526_j5781025980877_1_alg».proof.Proof.Spec
import proofs.«118526_j5781025980877_1_alg».proof.Proof.LibLayout
import proofs.«118526_j5781025980877_1_alg».proof.Proof.Gen.KernelIdeal.Skeleton
import Idealize.ShloMosaic.PureOps.Ideal.Laws

noncomputable section

namespace Cert.KernelIdeal.PrepPayload

open Cert.KernelIdeal Cert.KernelIdeal.Gen Idealize.ShloMosaic Idealize.ShloMosaic.ValueIdx

/-- A row statistic as the kernel lays it out: the lane sums of a block `v`, as a column, over 4096, broadcast back over
    the lanes. -/
def rowMeanBlock (v : FVec Ideal S512x4096 .f32) : FVec Ideal S512x4096 .f32 :=
  broadcastTo S512x4096
    (divf (shapeCast S512x1 (multiReduction .add [1] S512 v 0x00000000#32 reduces_S512x4096_S512 (.inl rfl) rfl)
        shapeCasts_S512_S512x1)
      (broadcast S512x1 (Scalar.ofBits .f32 0x45800000#32)))
    broadcasts_S512x1_S512x4096

/-- At `(p, c)` it is the sum of row `p` over 4096, whatever the lane `c`. -/
theorem rowMeanBlock_apply (v : FVec Ideal S512x4096 .f32) (p : Fin 512) (c : Fin 4096) :
    rowMeanBlock v (ix2 p c) = Ideal.div (∑ k : Fin 4096, v (ix2 p k)) (Ideal.ofBits .f32 0x45800000#32) :=
  (LibLayout.broadcastTo_a1_ab_apply _ broadcasts_S512x1_S512x4096 p c).trans
    (congrArg (Ideal.div · (Ideal.ofBits .f32 0x45800000#32))
      ((LibLayout.shapeCast_a_a1_apply _ shapeCasts_S512_S512x1 p 0).trans
        (LibLayout.laneSum_apply v reduces_S512x4096_S512 (.inl rfl) rfl p)))

/-- The block centred row by row and clipped to `[-1, 1]`, as the kernel computes it. -/
def clipBlock (v0 : FVec Ideal S512x4096 .f32) : FVec Ideal S512x4096 .f32 :=
  minimumf (broadcast S512x4096 (Scalar.ofBits .f32 0x3F800000#32))
    (maximumf (broadcast S512x4096 (Scalar.ofBits .f32 0xBF800000#32)) (subf v0 (rowMeanBlock v0)))

/-- At `(p, k)` it is the clipped centred entry `k` of the block's row `p`. -/
theorem clipBlock_apply (v0 : FVec Ideal S512x4096 .f32) (p : Fin 512) (k : Fin 4096) :
    clipBlock v0 (ix2 p k) = Cert.Xnor.clipped (fun k' => v0 (ix2 p k')) k :=
  congrArg (fun m => min (Ideal.ofBits .f32 0x3F800000#32) (max (Ideal.ofBits .f32 0xBF800000#32) (v0 (ix2 p k) - m)))
    (rowMeanBlock_apply v0 p k)

/-- The scale column broadcast back: at `(p, c)` the mean absolute value of the clipped row `p`. -/
theorem scale_apply (v0 : FVec Ideal S512x4096 .f32) (p : Fin 512) (c : Fin 4096) :
    rowMeanBlock (absf (clipBlock v0)) (ix2 p c) = Cert.Xnor.meanAbs (fun k' => v0 (ix2 p k')) :=
  (rowMeanBlock_apply (absf (clipBlock v0)) p c).trans
    (congrArg (Ideal.div · (Ideal.ofBits .f32 0x45800000#32))
      (Finset.sum_congr rfl fun k _ => congrArg (fun t => max t (-t)) (clipBlock_apply v0 p k)))

/-- The stored value is the kernel's sign of the clipped block times the scale, narrowed. -/
theorem pay_eq (v0 : Vec Ideal S512x4096 .f32) :
    Gen.k0_pay1 (F := Ideal) v0
      = truncf .bf16
          (mulf
            (select (cmpf .ogt (absf (clipBlock v0)) (broadcast S512x4096 (Scalar.ofBits .f32 0x00000000#32)))
              (select (cmpf .olt (clipBlock v0) (constant S512x4096 .f32 0x00000000#32))
                (constant S512x4096 .f32 0xBF800000#32) (constant S512x4096 .f32 0x3F800000#32))
              (clipBlock v0))
            (rowMeanBlock (absf (clipBlock v0))))
          bitsLt_bf16_f32 := rfl

/-- The prepared weight at `(p, q)` of the block: entry `q` of the prepared row made from the block's row `p`. -/
theorem prep_apply (v0 : Vec Ideal S512x4096 .f32) (p : Fin 512) (q : Fin 4096) :
    Gen.k0_pay1 (F := Ideal) v0 (ix2 p q) = Cert.Xnor.wrow (fun k => v0 (ix2 p k)) q := by
  rw [pay_eq]
  exact congrArg₂ (· * ·)
    ((Ideal.jnp_sign_eq_sign_f32 (clipBlock v0 (ix2 p q))).trans (congrArg Cert.Xnor.sgn (clipBlock_apply v0 p q)))
    (scale_apply v0 p q)

end Cert.KernelIdeal.PrepPayload

end
-- ==== Proof.PrepValue.lean ====
import proofs.«118526_j5781025980877_1_alg».proof.Proof.PrepFrame
import proofs.«118526_j5781025980877_1_alg».proof.Proof.Spec
import proofs.«118526_j5781025980877_1_alg».proof.Proof.PrepPayload
import Idealize.ShloMosaic.Lib.Pipeline.Value

/-! # The weight-preparation region: what it leaves in the prepared matrix

Each of the eight grid points prepares 512 rows of the full-precision matrix and writes them back as the same 512 rows
of the prepared matrix; the eight row blocks tile the 4096 rows. So after the region the prepared matrix is, row by
row, the prepared form of the corresponding full-precision row: one function of the matrix the region found. -/

noncomputable section

namespace Cert.KernelIdeal.PrepValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The prepared matrix as one function of the full-precision matrix: entry `(o, k)` is entry `k` of the prepared
    form of row `o`. -/
def W (fp : S4096x4096.Idx → EReal) : S4096x4096.Idx → EReal :=
  fun i => Cert.Xnor.wrow (fun k => fp (ix2 (⟨(i 0).val, idx2_lt0 i⟩ : Fin 4096) k)) (⟨(i 1).val, idx2_lt1 i⟩ : Fin 4096)

/-- `W` read at the index with coordinates `(o, k)`. -/
theorem W_apply (fp : S4096x4096.Idx → EReal) (o k : Fin 4096) :
    W fp (ix2 o k) = Cert.Xnor.wrow (fun k' => fp (ix2 o k')) k := rfl

/-- Both windows' block index at grid point `t` is `(t, 0)`: the block of rows `512 t … 512 t + 511`, all columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A 512 × 4096 block whose row `p` is row `512 b + p` of a matrix is prepared into the block whose entry `(p, q)` is
    the prepared matrix's entry `(512 b + p, q)`. -/
theorem prep_block (fp : S4096x4096.Idx → EReal) (x0 : Vec Ideal S512x4096 .f32) (b : Nat)
    (hx : ∀ (p : Fin 512) (k : Fin 4096) (i : S4096x4096.Idx), (i 0).val = 512 * b + p.val → (i 1).val = k.val → x0 (ix2 p k) = fp i)
    (p : Fin 512) (q : Fin 4096) (i : S4096x4096.Idx) (hi0 : (i 0).val = 512 * b + p.val) (hi1 : (i 1).val = q.val) :
    k0_pay1 (F := Ideal) x0 (ix2 p q) = W fp i := by
  rw [Cert.KernelIdeal.PrepPayload.prep_apply x0 p q]
  unfold W
  have hq : (⟨(i 1).val, idx2_lt1 i⟩ : Fin 4096) = q := Fin.ext hi1
  rw [hq]
  refine congrArg (fun r => Cert.Xnor.wrow r q) (funext fun k => ?_)
  exact hx p k _ hi0 rfl

/-- The input block at point `t`, entry `(p, k)`, is the full-precision matrix's entry `(512 t + p, k)`. -/
theorem iblk_entry (c : Dev nD) (t : Fin cfg0.N) (p : Fin 512) (k : Fin 4096) (i : S4096x4096.Idx)
    (hi0 : (i 0).val = 512 * t.val + p.val) (hi1 : (i 1).val = k.val) :
    (iblk0 V c 0 t : Vec Ideal S512x4096 .f32) (ix2 p k) = (V c main_arg1 : S4096x4096.Idx → EReal) i := by
  obtain ⟨e0, e1, -, -⟩ := idx_facts t
  unfold iblk0
  rw [View.read_apply]
  show V c main_arg1 _ = V c main_arg1 _
  refine congrArg (V c main_arg1) (funext fun a => Fin.ext ?_)
  match a with
  | ⟨0, _⟩ => show win0_0.index t (0 : Fin 2) * 512 + 1 * p.val = (i 0).val; rw [e0, hi0]; omega
  | ⟨1, _⟩ => show win0_0.index t (1 : Fin 2) * 4096 + 1 * k.val = (i 1).val; rw [e1, hi1]; omega

/-- What point `t` writes back is block `t` of the prepared matrix `W` of the full-precision matrix as found. -/
theorem flushed_eq (c : Dev nD) (t : Fin cfg0.N) :
    (dat0 V c).flushed 1 t = ((cfg0.win 1).blk t).view.read (Elt Ideal) (W (V c main_arg1)) := by
  show (cfg0.win 1).cut (grid0.coords t) ((dat0 V c).after 1 t) = _
  rw [after0_1]
  unfold out0_1
  rw [View.canon_unit_zero hz]
  simp only [View.ld_unit_zero (S := S512x4096) hz]
  obtain ⟨-, -, e2, e3⟩ := idx_facts t
  funext j
  obtain ⟨p, q, rfl⟩ : ∃ (p : Fin 512) (q : Fin 4096), j = ix2 p q := ⟨j 0, j 1, eq_ix2 j⟩
  show k0_pay1 (F := Ideal) (iblk0 V c 0 t) (ix2 p q) = W (V c main_arg1) (((cfg0.win 1).blk t).view.emb (ix2 p q))
  refine prep_block (V c main_arg1) (iblk0 V c 0 t) t.val (fun p' k i h0 h1 => iblk_entry V c t p' k i h0 h1) p q _ ?_ ?_
  · show win0_1.index t (0 : Fin 2) * 512 + 1 * p.val = 512 * t.val + p.val; rw [e2]; omega
  · show win0_1.index t (1 : Fin 2) * 4096 + 1 * q.val = q.val; rw [e3]; omega

/-- An index of the prepared matrix is in point `t`'s block iff each coordinate is in the block's range on its axis. -/
theorem mem_blk (t : Fin cfg0.N) (i : S4096x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v0).slice (win0_1.rect t)).set ↔ _
  rw [View.set_slice_whole, Rect.mem_set_unit]
  exact Iff.rfl

/-- Row `o` lies in the block of point `o / 512`. -/
theorem cover (i : S4096x4096.Idx) : ∃ t : Fin cfg0.N, (cfg0.win 1).flush t = true ∧ i ∈ ((cfg0.win 1).blk t).view.set := by
  have hi0 : (i 0).val < 4096 := idx2_lt0 i
  have hi1 : (i 1).val < 4096 := idx2_lt1 i
  have hN : cfg0.N = 8 := N_0
  let t : Fin cfg0.N := ⟨(i 0).val / 512, by rw [hN]; omega⟩
  obtain ⟨-, -, e2, e3⟩ := idx_facts t
  have ht : t.val = (i 0).val / 512 := rfl
  refine ⟨t, flush0_1 t, ?_⟩
  rw [mem_blk]
  intro a
  match a with
  | ⟨0, _⟩ => show win0_1.index t (0 : Fin 2) * 512 ≤ (i 0).val ∧ (i 0).val < win0_1.index t (0 : Fin 2) * 512 + 512; rw [e2, ht]; omega
  | ⟨1, _⟩ => show win0_1.index t (1 : Fin 2) * 4096 ≤ (i 1).val ∧ (i 1).val < win0_1.index t (1 : Fin 2) * 4096 + 4096; rw [e3]; omega

/-- After the region the prepared matrix is `W` of the full-precision matrix the region found. -/
theorem prep_final (c : Dev nD) : (dat0 (F := Ideal) V c).arrAt 1 cfg0.N = W (V c main_arg1) :=
  (dat0 V c).arrAt_eq_of_cover 1 (W (V c main_arg1)) (fun t _ => flushed_eq V c t) cover

/-- The same, entry by entry: entry `(o, k)` of the prepared matrix is entry `k` of the prepared form of row `o`. -/
theorem prep_final_apply (c : Dev nD) (o k : Fin 4096) :
    ((dat0 (F := Ideal) V c).arrAt 1 cfg0.N : S4096x4096.Idx → EReal) (ix2 o k)
      = Cert.Xnor.wrow (fun k' => (V c main_arg1 : S4096x4096.Idx → EReal) (ix2 o k')) k := by
  rw [prep_final V c]; rfl

end Cert.KernelIdeal.PrepValue

end
-- ==== Proof.MatmulPieces.lean ====
/-
  The accumulating product: the stored pieces the runs found, read as the body's arithmetic.

  Every store of the body covers its whole buffer, so the last store decides the contents, and a load after a
  whole-buffer store reads that store's value. At an even position the accumulator ends as the product of the first
  halves added to the cleared accumulator; at an odd position as the product of the second halves added to what it
  held, and the output block as that sum plus the bias row.
-/
import proofs.«118526_j5781025980877_1_alg».proof.Proof.MatmulFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- After an even position: the step from the cleared accumulator. -/
theorem acc_even_eq (c : Dev nD) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : cond1_0 i) (hc1 : ¬cond1_1 i)
    (x0 : Vec F S1024x2048 .f32) (x1 : Vec F S1024x2048 .bf16) :
    acc_even c i arg3 harg3 arg4 harg4 arg5 harg5 arg6 harg6 arg7 harg7 hc0 hc1 x0 x1 = k1_pay2 x0 x1 (k1_pay1 (F := F)) := by
  unfold acc_even
  rw [View.read_writes_eq_canon _ _ _ (scover_even c i arg3 harg3 arg4 harg4 arg5 harg5 arg6 harg6 arg7 harg7 hc0 hc1 x0 x1)]
  unfold matmulRun_even
  dsimp only
  sl_unfold_words
  rw [View.canon_cons_unit_zero hz2, View.readCov_unit_zero _ hz2]
  simp only [View.readAt_eq_ld, harg3.read_unread, harg4.read_unread, View.ld_unit_zero (S := S1024x2048) hz2]

/-- After an odd position: the step from what the accumulator held. -/
theorem acc_odd_eq (c : Dev nD) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : cond1_1 i)
    (x0 : Vec F S1024x2048 .f32) (x1 : Vec F S1024x2048 .bf16) (x2 : Vec F S1x1024 .f32) (xs0 : Vec F S1024x1024 .f32) :
    acc_odd c i arg3 harg3 arg4 harg4 arg5 harg5 arg6 harg6 arg7 harg7 hc0 hc1 x0 x1 x2 xs0 = k1_pay2 x0 x1 xs0 := by
  unfold acc_odd
  rw [View.read_writes_eq_canon _ _ _ (scover_odd c i arg3 harg3 arg4 harg4 arg5 harg5 arg6 harg6 arg7 harg7 hc0 hc1 x0 x1 x2 xs0)]
  unfold matmulRun_odd
  dsimp only
  sl_unfold_words
  rw [View.canon_unit_zero hz2]
  simp only [View.readAt_eq_ld, harg3.read_unread, harg4.read_unread, harg7.read_unread, View.ld_unit_zero (S := S1024x2048) hz2, View.ld_unit_zero (S := S1024x1024) hz2]

/-- The output block an odd position emits: the accumulator's new contents plus the bias row. -/
theorem out_odd_eq (c : Dev nD) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : cond1_1 i)
    (x0 : Vec F S1024x2048 .f32) (x1 : Vec F S1024x2048 .bf16) (x2 : Vec F S1x1024 .f32) (xs0 : Vec F S1024x1024 .f32) :
    out_odd c i arg3 harg3 arg4 harg4 arg5 harg5 arg6 harg6 arg7 harg7 hc0 hc1 x0 x1 x2 xs0 = k1_pay3 (k1_pay2 x0 x1 xs0) x2 := by
  unfold out_odd
  rw [View.read_writes_eq_canon _ _ _ (cover_odd c i arg3 harg3 arg4 harg4 arg5 harg5 arg6 harg6 arg7 harg7 hc0 hc1 x0 x1 x2 xs0)]
  unfold matmulRun_odd
  dsimp only
  sl_unfold_words
  rw [View.canon_unit_zero hz2, View.readCov_unit_zero _ hz2]
  simp only [View.readAt_eq_ld, harg3.read_unread, harg4.read_unread, harg5.read_unread, harg7.read_unread, View.ld_unit_zero (S := S1024x2048) hz2, View.ld_unit_zero (S := S1024x1024) hz2, View.ld_unit_zero (S := S1x1024) hz2]

variable (V : (c : Dev nD) → (b : Ref sig .tc) → Buf (Elt F) ((c : Thread nD τ).loc b))

/-- What an odd position emits, from the blocks of the two positions of its pair. -/
theorem outAt_odd_eq (c : Dev nD) (t : Fin cfg1.N) (h0 : ¬t.val % 2 = 0) :
    outAt V c t = k1_pay3 (k1_pay2 (iblk1 V c 0 t) (iblk1 V c 1 t)
      (k1_pay2 (iblk1 V c 0 (prev t)) (iblk1 V c 1 (prev t)) (k1_pay1 (F := F)))) (iblk1 V c 2 t) := by
  rw [outAt_odd V c t h0, out_odd_eq]
  unfold accE
  rw [acc_even_eq]

end Cert.KernelIdeal.Hand

end
-- ==== Proof.AccPayload.lean ====
/-
  The matrix-product kernel's three stored values, each read at one element of the 1024 × 1024 accumulator block.

  * On the first step along the contraction the accumulator is set to zero.
  * On every step the accumulator gains, at `(p, q)`, the sum over the 2048 columns `k` of the step's blocks of
    the sign of the activation `(p, k)` times the prepared weight `(q, k)`: the product contracts axis 1 of BOTH
    blocks, so the weight block is read by rows, not transposed.
  * On the last step the output block is the accumulator plus the bias row, the same row under every `p`.

  The kernel spells the sign of `c` as "1 carrying the sign of `c` where `|c| > 0`, and `c` itself elsewhere", which
  is `-1`, `0` or `1` by the order, the value `Cert.Xnor.sgn` names; narrowing the signs to sixteen bits changes
  nothing at the exact values, and a cast of a block to its own shape is the identity.
-/
import proofs.«118526_j5781025980877_1_alg».proof.Proof.Spec
import proofs.«118526_j5781025980877_1_alg».proof.Proof.Gen.KernelIdeal.Skeleton
import Idealize.ShloMosaic.Lib.Pipeline.Value
import Idealize.ShloMosaic.Lib.ValueLayout
import Idealize.ShloMosaic.PureOps.Ideal.Laws

noncomputable section

namespace Cert.KernelIdeal.AccPayload

open Cert.KernelIdeal Cert.KernelIdeal.Gen Idealize.ShloMosaic Idealize.ShloMosaic.ValueIdx

/-! ## The operand indices of the product -/

/-- Axis 0 of the left block is the output's axis 0 … -/
theorem lhs_0 (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide),
    dif_pos (show (0 : Fin S1024x2048.rank) ∈ dot_S1024x2048_S1024x2048_S1024x1024_1_1_0_0_n_n.lhsNonContracting by decide)]
  rfl
/-- … and its axis 1 is the contracted one. -/
theorem lhs_1 (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q
/-- Axis 0 of the right block is the output's axis 1 … -/
theorem rhs_0 (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide),
    dif_pos (show (0 : Fin S1024x2048.rank) ∈ dot_S1024x2048_S1024x2048_S1024x1024_1_1_0_0_n_n.rhsNonContracting by decide)]
  rfl
/-- … and its axis 1 is the contracted one too. -/
theorem rhs_1 (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

/-- The product of a left block `l` and a right block `r`, both 1024 × 2048, into a zero accumulator, read at `(p, q)`:
    the sum over the 2048 columns `k` of `l (p, k) · r (q, k)`. -/
theorem product_apply (l : FVec Ideal S1024x2048 .bf16) (r : FVec Ideal S1024x2048 .bf16) (p q : Fin 1024) :
    FloatOps.matmul dot_S1024x2048_S1024x2048_S1024x1024_1_1_0_0_n_n none l r (constant S1024x1024 .f32 0x00000000#32) (ix2 p q)
      = ∑ k : Fin 2048, l (ix2 p k) * r (ix2 q k) := by
  rw [Ideal.matmul_constant_zero_apply,
    ← Equiv.sum_comp (ValueIdx.contrEquiv1 dot_S1024x2048_S1024x2048_S1024x1024_1_1_0_0_n_n 2048 rfl rfl).symm]
  refine Finset.sum_congr rfl fun k _ => ?_
  have hk := ValueIdx.contrEquiv1_symm_val dot_S1024x2048_S1024x2048_S1024x1024_1_1_0_0_n_n 2048 rfl rfl k
  have el : dot_S1024x2048_S1024x2048_S1024x1024_1_1_0_0_n_n.lhsIdx (ix2 p q) ((ValueIdx.contrEquiv1 dot_S1024x2048_S1024x2048_S1024x1024_1_1_0_0_n_n 2048 rfl rfl).symm k) = ix2 p k :=
    funext fun a => Fin.ext (by
      match a with
      | ⟨0, _⟩ => exact lhs_0 _ _
      | ⟨1, _⟩ => exact (lhs_1 _ _).trans hk)
  have er : dot_S1024x2048_S1024x2048_S1024x1024_1_1_0_0_n_n.rhsIdx (ix2 p q) ((ValueIdx.contrEquiv1 dot_S1024x2048_S1024x2048_S1024x1024_1_1_0_0_n_n 2048 rfl rfl).symm k) = ix2 q k :=
    funext fun a => Fin.ext (by
      match a with
      | ⟨0, _⟩ => exact rhs_0 _ _
      | ⟨1, _⟩ => exact (rhs_1 _ _).trans hk)
  rw [el, er]

/-! ## The sign the kernel computes -/

/-- The kernel's sign of a block, read at an index: `-1`, `0` or `1` by the order of the element there. -/
theorem sign_vec_apply {s : Shape} (x : FVec Ideal s .f32) (i : s.Idx) :
    select (cmpf .ogt (absf x) (broadcast s (Scalar.ofBits .f32 0x00000000#32)))
        (select (cmpf .olt x (constant s .f32 0x00000000#32)) (constant s .f32 0xBF800000#32)
          (constant s .f32 0x3F800000#32)) x i
      = Cert.Xnor.sgn (x i) :=
  Ideal.jnp_sign_eq_sign_f32 (x i)

/-! ## The three stored values -/

/-- The value the first contraction step stores into the accumulator: zero everywhere. -/
theorem acc_zero (p q : Fin 1024) : Gen.k1_pay1 (F := Ideal) (ix2 p q) = 0 := by
  unfold Gen.k1_pay1
  rw [shapeCast_self]
  exact Ideal.ofBits_zero_f32

/-- The value every contraction step stores back: the accumulator `a` plus the step's partial product. -/
theorem acc_step (x : Vec Ideal S1024x2048 .f32) (w : Vec Ideal S1024x2048 .bf16) (a : Vec Ideal S1024x1024 .f32)
    (p q : Fin 1024) :
    Gen.k1_pay2 (F := Ideal) x w a (ix2 p q)
      = a (ix2 p q) + ∑ k : Fin 2048, Cert.Xnor.sgn (x (ix2 p k)) * w (ix2 q k) := by
  unfold Gen.k1_pay2
  rw [shapeCast_self, shapeCast_self]
  refine congrArg (a (ix2 p q) + ·) ?_
  refine (product_apply _ _ p q).trans (Finset.sum_congr rfl fun k _ => ?_)
  exact congrArg (· * w (ix2 q k)) (sign_vec_apply x (ix2 p k))

/-- The value the last contraction step stores into the output block: the accumulator plus the bias row. -/
theorem out_bias (a : Vec Ideal S1024x1024 .f32) (b : Vec Ideal S1x1024 .f32) (p q : Fin 1024) :
    Gen.k1_pay3 (F := Ideal) a b (ix2 p q) = a (ix2 p q) + b (ix2 0 q) := by
  unfold Gen.k1_pay3
  rw [shapeCast_self]
  exact congrArg (a (ix2 p q) + ·) (broadcastTo_1b_ab_apply b _ p q)

end Cert.KernelIdeal.AccPayload

end
-- ==== Proof.MatmulValue.lean ====
import proofs.«118526_j5781025980877_1_alg».proof.Proof.MatmulPieces
import proofs.«118526_j5781025980877_1_alg».proof.Proof.Spec
import proofs.«118526_j5781025980877_1_alg».proof.Proof.AccPayload
import Idealize.ShloMosaic.Lib.Pipeline.Value

/-! # The accumulating-product region: what it leaves in the result array

The grid's 128 positions come in pairs. The pair `(2n, 2n + 1)` belongs to one output block, rows
`1024 i … 1024 i + 1023` and columns `1024 j … 1024 j + 1023` with `i = n / 4` and `j = n % 4`: the even position multiplies
the signs of the activations' columns `0 … 2047` with the prepared weights' columns `0 … 2047` into a cleared accumulator,
the odd position adds the same product over the columns `2048 … 4095`, adds the bias of the block's columns, and writes the
block back. The two half sums joined are the sum over all 4096 columns, and the 64 output blocks tile the result. So
after the region the result array is, entry by entry, one function of the three arrays the region found: at `(r, o)` the
sum over `k` of the sign of activation `(r, k)` times prepared weight `(o, k)`, plus the bias of `o`. -/

noncomputable section

namespace Cert.KernelIdeal.MatmulValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The result as one function of the activations `X`, the prepared weights `Wt` and the bias row `B`. -/
def M (X : S16384x4096.Idx → EReal) (Wt : S4096x4096.Idx → EReal) (B : S1x4096.Idx → EReal) : S16384x4096.Idx → EReal :=
  fun i => (∑ k : Fin 4096, Cert.Xnor.sgn (X (ix2 (⟨(i 0).val, idx2_lt0 i⟩ : Fin 16384) k))
      * Wt (ix2 (⟨(i 1).val, idx2_lt1 i⟩ : Fin 4096) k))
    + B (ix2 (0 : Fin 1) (⟨(i 1).val, idx2_lt1 i⟩ : Fin 4096))

/-- `M` read at the index with coordinates `(r, o)`. -/
theorem M_apply (X : S16384x4096.Idx → EReal) (Wt : S4096x4096.Idx → EReal) (B : S1x4096.Idx → EReal)
    (r : Fin 16384) (o : Fin 4096) :
    M X Wt B (ix2 r o) = (∑ k : Fin 4096, Cert.Xnor.sgn (X (ix2 r k)) * Wt (ix2 o k)) + B (ix2 (0 : Fin 1) o) := rfl

/-- The four windows' block indices at position `t`, with `i = t / 8`, `j = t / 2 % 4` and `k = t % 2`: the activations'
    block `(i, k)`, the weights' block `(j, k)`, the bias row's block `(0, j)`, the result's block `(i, j)`. -/
theorem idx_facts : ∀ t : Fin cfg1.N,
    win1_0.index t (0 : Fin 2) = t.val / 8 ∧ win1_0.index t (1 : Fin 2) = t.val % 2
    ∧ win1_1.index t (0 : Fin 2) = t.val / 2 % 4 ∧ win1_1.index t (1 : Fin 2) = t.val % 2
    ∧ win1_2.index t (0 : Fin 2) = 0 ∧ win1_2.index t (1 : Fin 2) = t.val / 2 % 4
    ∧ win1_3.index t (0 : Fin 2) = t.val / 8 ∧ win1_3.index t (1 : Fin 2) = t.val / 2 % 4 :=
  (by decide +kernel : ∀ t : Fin grid1.N, _)

/-! ## One pair of positions, over blocks given by what they read -/

/-- The arithmetic of one output block. Given the two activation half blocks `x0`, `x1` of row block `bi`, the two
    weight half blocks `w0`, `w1` of row block `bj` and the bias block `bb` of column block `bj`, each known entry by
    entry as an entry of its whole array, what the odd position stores at `(p, q)` is the result function at the array
    index `(1024 bi + p, 1024 bj + q)`. -/
theorem pair_block (X : S16384x4096.Idx → EReal) (Wt : S4096x4096.Idx → EReal) (B : S1x4096.Idx → EReal)
    (x0 x1 : Vec Ideal S1024x2048 .f32) (w0 w1 : Vec Ideal S1024x2048 .bf16) (bb : Vec Ideal S1x1024 .f32) (bi bj : Nat)
    (hx0 : ∀ (p : Fin 1024) (k : Fin 2048) (i : S16384x4096.Idx), (i 0).val = 1024 * bi + p.val → (i 1).val = k.val → x0 (ix2 p k) = X i)
    (hx1 : ∀ (p : Fin 1024) (k : Fin 2048) (i : S16384x4096.Idx), (i 0).val = 1024 * bi + p.val → (i 1).val = 2048 + k.val → x1 (ix2 p k) = X i)
    (hw0 : ∀ (q : Fin 1024) (k : Fin 2048) (i : S4096x4096.Idx), (i 0).val = 1024 * bj + q.val → (i 1).val = k.val → w0 (ix2 q k) = Wt i)
    (hw1 : ∀ (q : Fin 1024) (k : Fin 2048) (i : S4096x4096.Idx), (i 0).val = 1024 * bj + q.val → (i 1).val = 2048 + k.val → w1 (ix2 q k) = Wt i)
    (hb : ∀ (q : Fin 1024) (i : S1x4096.Idx), (i 1).val = 1024 * bj + q.val → bb (ix2 (0 : Fin 1) q) = B i)
    (p q : Fin 1024) (i : S16384x4096.Idx) (hi0 : (i 0).val = 1024 * bi + p.val) (hi1 : (i 1).val = 1024 * bj + q.val) :
    k1_pay3 (F := Ideal) (k1_pay2 x1 w1 (k1_pay2 x0 w0 (k1_pay1 (F := Ideal)))) bb (ix2 p q) = M X Wt B i := by
  rw [Cert.KernelIdeal.AccPayload.out_bias, Cert.KernelIdeal.AccPayload.acc_step, Cert.KernelIdeal.AccPayload.acc_step,
    Cert.KernelIdeal.AccPayload.acc_zero, zero_add]
  unfold M
  rw [Cert.Xnor.sum_halves]
  refine congrArg₂ (· + ·) (congrArg₂ (· + ·) (Finset.sum_congr rfl fun k _ => ?_) (Finset.sum_congr rfl fun k _ => ?_)) ?_
  · rw [hx0 p k (ix2 (⟨(i 0).val, idx2_lt0 i⟩ : Fin 16384) (⟨k.val, by omega⟩ : Fin 4096)) hi0 rfl,
      hw0 q k (ix2 (⟨(i 1).val, idx2_lt1 i⟩ : Fin 4096) (⟨k.val, by omega⟩ : Fin 4096)) hi1 rfl]
  · rw [hx1 p k (ix2 (⟨(i 0).val, idx2_lt0 i⟩ : Fin 16384) (⟨2048 + k.val, by omega⟩ : Fin 4096)) hi0 rfl,
      hw1 q k (ix2 (⟨(i 1).val, idx2_lt1 i⟩ : Fin 4096) (⟨2048 + k.val, by omega⟩ : Fin 4096)) hi1 rfl]
  · exact hb q (ix2 (0 : Fin 1) (⟨(i 1).val, idx2_lt1 i⟩ : Fin 4096)) hi1

/-! ## The blocks the windows hold, as entries of their arrays -/

/-- The activations' block at position `t`, entry `(p, k)`: the activations' entry `(1024 (t / 8) + p, 2048 (t % 2) + k)`. -/
theorem iblk0_entry (c : Dev nD) (t : Fin cfg1.N) (p : Fin 1024) (k : Fin 2048) (i : S16384x4096.Idx)
    (hi0 : (i 0).val = 1024 * (t.val / 8) + p.val) (hi1 : (i 1).val = 2048 * (t.val % 2) + k.val) :
    (iblk1 V c 0 t : Vec Ideal S1024x2048 .f32) (ix2 p k) = (V c main_arg0 : S16384x4096.Idx → EReal) i := by
  obtain ⟨e0, e1, -, -, -, -, -, -⟩ := idx_facts t
  unfold iblk1
  rw [View.read_apply]
  show V c main_arg0 _ = V c main_arg0 _
  refine congrArg (V c main_arg0) (funext fun a => Fin.ext ?_)
  match a with
  | ⟨0, _⟩ => show win1_0.index t (0 : Fin 2) * 1024 + 1 * p.val = (i 0).val; rw [e0, hi0]; omega
  | ⟨1, _⟩ => show win1_0.index t (1 : Fin 2) * 2048 + 1 * k.val = (i 1).val; rw [e1, hi1]; omega

/-- The prepared weights' block at position `t`, entry `(q, k)`: their entry `(1024 (t / 2 % 4) + q, 2048 (t % 2) + k)`. -/
theorem iblk1_entry (c : Dev nD) (t : Fin cfg1.N) (q : Fin 1024) (k : Fin 2048) (i : S4096x4096.Idx)
    (hi0 : (i 0).val = 1024 * (t.val / 2 % 4) + q.val) (hi1 : (i 1).val = 2048 * (t.val % 2) + k.val) :
    (iblk1 V c 1 t : Vec Ideal S1024x2048 .bf16) (ix2 q k) = (V c main_v0 : S4096x4096.Idx → EReal) i := by
  obtain ⟨-, -, e0, e1, -, -, -, -⟩ := idx_facts t
  unfold iblk1
  rw [View.read_apply]
  show V c main_v0 _ = V c main_v0 _
  refine congrArg (V c main_v0) (funext fun a => Fin.ext ?_)
  match a with
  | ⟨0, _⟩ => show win1_1.index t (0 : Fin 2) * 1024 + 1 * q.val = (i 0).val; rw [e0, hi0]; omega
  | ⟨1, _⟩ => show win1_1.index t (1 : Fin 2) * 2048 + 1 * k.val = (i 1).val; rw [e1, hi1]; omega

/-- The bias row's block at position `t`, entry `(0, q)`: the bias row's entry `1024 (t / 2 % 4) + q`. -/
theorem iblk2_entry (c : Dev nD) (t : Fin cfg1.N) (q : Fin 1024) (i : S1x4096.Idx)
    (hi1 : (i 1).val = 1024 * (t.val / 2 % 4) + q.val) :
    (iblk1 V c 2 t : Vec Ideal S1x1024 .f32) (ix2 (0 : Fin 1) q) = (V c main_v1 : S1x4096.Idx → EReal) i := by
  obtain ⟨-, -, -, -, e0, e1, -, -⟩ := idx_facts t
  have hi0 : (i 0).val = 0 := by have := idx2_lt0 i; omega
  unfold iblk1
  rw [View.read_apply]
  show V c main_v1 _ = V c main_v1 _
  refine congrArg (V c main_v1) (funext fun a => Fin.ext ?_)
  match a with
  | ⟨0, _⟩ => show win1_2.index t (0 : Fin 2) * 1 + 1 * 0 = (i 0).val; rw [e0, hi0]
  | ⟨1, _⟩ => show win1_2.index t (1 : Fin 2) * 1024 + 1 * q.val = (i 1).val; rw [e1, hi1]; omega

/-! ## From the blocks to the array -/

/-- What an odd position writes back is its block of the result function of the arrays as found. -/
theorem flushed_eq (c : Dev nD) (t : Fin cfg1.N) (h1 : t.val % 2 = 1) :
    (dat1 V c).flushed 3 t
      = ((cfg1.win 3).blk t).view.read (Elt Ideal) (M (V c main_arg0) (V c main_v0) (V c main_v1)) := by
  show (cfg1.win 3).cut (grid1.coords t) ((dat1 V c).after 3 t) = _
  rw [after1_3, outAt_odd_eq V c t (by omega)]
  obtain ⟨-, -, -, -, -, -, e6, e7⟩ := idx_facts t
  have hp : (prev t).val = t.val - 1 := rfl
  funext j
  obtain ⟨p, q, rfl⟩ : ∃ (p : Fin 1024) (q : Fin 1024), j = ix2 p q := ⟨j 0, j 1, eq_ix2 j⟩
  show k1_pay3 (F := Ideal) (k1_pay2 (iblk1 V c 0 t) (iblk1 V c 1 t)
      (k1_pay2 (iblk1 V c 0 (prev t)) (iblk1 V c 1 (prev t)) (k1_pay1 (F := Ideal)))) (iblk1 V c 2 t) (ix2 p q)
    = M (V c main_arg0) (V c main_v0) (V c main_v1) (((cfg1.win 3).blk t).view.emb (ix2 p q))
  refine pair_block (V c main_arg0) (V c main_v0) (V c main_v1) (iblk1 V c 0 (prev t)) (iblk1 V c 0 t)
    (iblk1 V c 1 (prev t)) (iblk1 V c 1 t) (iblk1 V c 2 t) (t.val / 8) (t.val / 2 % 4)
    (fun p' k i h0 h1' => iblk0_entry V c (prev t) p' k i (by rw [hp, h0]; omega) (by rw [hp, h1']; omega))
    (fun p' k i h0 h1' => iblk0_entry V c t p' k i h0 (by rw [h1']; omega))
    (fun q' k i h0 h1' => iblk1_entry V c (prev t) q' k i (by rw [hp, h0]; omega) (by rw [hp, h1']; omega))
    (fun q' k i h0 h1' => iblk1_entry V c t q' k i h0 (by rw [h1']; omega))
    (fun q' i h => iblk2_entry V c t q' i h) p q _ ?_ ?_
  · show win1_3.index t (0 : Fin 2) * 1024 + 1 * p.val = 1024 * (t.val / 8) + p.val; rw [e6]; omega
  · show win1_3.index t (1 : Fin 2) * 1024 + 1 * q.val = 1024 * (t.val / 2 % 4) + q.val; rw [e7]; omega

/-- An index of the result is in position `t`'s block iff each coordinate is in the block's range on its axis. -/
theorem mem_blk (t : Fin cfg1.N) (i : S16384x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v2).slice (win1_3.rect t)).set ↔ _
  rw [View.set_slice_whole, Rect.mem_set_unit]
  exact Iff.rfl

/-- Entry `(r, o)` lies in the block of the odd position of the pair `4 (r / 1024) + o / 1024`. -/
theorem cover (i : S16384x4096.Idx) : ∃ t : Fin cfg1.N, (cfg1.win 3).flush t = true ∧ i ∈ ((cfg1.win 3).blk t).view.set := by
  have hi0 : (i 0).val < 16384 := idx2_lt0 i
  have hi1 : (i 1).val < 4096 := idx2_lt1 i
  have hN : cfg1.N = 128 := N_1
  let t : Fin cfg1.N := ⟨8 * ((i 0).val / 1024) + 2 * ((i 1).val / 1024) + 1, by rw [hN]; omega⟩
  obtain ⟨-, -, -, -, -, -, e6, e7⟩ := idx_facts t
  have ht : t.val = 8 * ((i 0).val / 1024) + 2 * ((i 1).val / 1024) + 1 := rfl
  refine ⟨t, (flush1_3 t).mpr (by rw [ht]; omega), ?_⟩
  rw [mem_blk]
  intro a
  match a with
  | ⟨0, _⟩ => show win1_3.index t (0 : Fin 2) * 1024 ≤ (i 0).val ∧ (i 0).val < win1_3.index t (0 : Fin 2) * 1024 + 1024; rw [e6, ht]; omega
  | ⟨1, _⟩ => show win1_3.index t (1 : Fin 2) * 1024 ≤ (i 1).val ∧ (i 1).val < win1_3.index t (1 : Fin 2) * 1024 + 1024; rw [e7, ht]; omega

/-- After the region the result array is the result function of the three arrays the region found. -/
theorem matmul_final (c : Dev nD) :
    (dat1 (F := Ideal) V c).arrAt 3 cfg1.N = M (V c main_arg0) (V c main_v0) (V c main_v1) :=
  (dat1 V c).arrAt_eq_of_cover 3 (M (V c main_arg0) (V c main_v0) (V c main_v1))
    (fun t hf => flushed_eq V c t ((flush1_3 t).mp hf)) cover

/-- The same, entry by entry. -/
theorem matmul_final_apply (c : Dev nD) (r : Fin 16384) (o : Fin 4096) :
    ((dat1 (F := Ideal) V c).arrAt 3 cfg1.N : S16384x4096.Idx → EReal) (ix2 r o)
      = (∑ k : Fin 4096, Cert.Xnor.sgn ((V c main_arg0 : S16384x4096.Idx → EReal) (ix2 r k))
            * (V c main_v0 : S4096x4096.Idx → EReal) (ix2 o k))
          + (V c main_v1 : S1x4096.Idx → EReal) (ix2 (0 : Fin 1) o) := by
  rw [matmul_final V c]; rfl

end Cert.KernelIdeal.MatmulValue

end
-- ==== Proof.FinalValue.lean ====
/-
  The result array of the idealized kernel, read back to the launch memory, is the layer function of the three
  argument arrays: the accumulating-product region leaves, at (r, o), the sum over the whole contracted axis of the
  signed activation times the weight it found, plus the bias entry it found; the weights it found are the first
  region's prepared rows of the launched full-precision weights, and the bias row is the launched bias reshaped.
-/
import proofs.«118526_j5781025980877_1_alg».proof.Proof.XnorBoundary
import proofs.«118526_j5781025980877_1_alg».proof.Proof.PrepValue
import proofs.«118526_j5781025980877_1_alg».proof.Proof.MatmulValue
import proofs.«118526_j5781025980877_1_alg».proof.Proof.Spec
import Idealize.ShloMosaic.Lib.ValueIdx
import Idealize.ShloMosaic.Lib.Pipeline.Value

noncomputable section

namespace Cert.KernelIdeal.FinalValue

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ)

/-- The bias row the region finds, at column `o`, is the launched bias at `o`. -/
theorem bias_row (b : S4096.Idx → EReal) (o : Fin 4096) :
    shapeCast S1x4096 b shapeCasts_S4096_S1x4096 (ix2 (0 : Fin 1) o) = b (ix1 o) :=
  (shapeCast_addUnit_apply ![4096] b shapeCasts_S4096_S1x4096 (ix2 (0 : Fin 1) o)).trans
    (congrArg b (funext fun a => Fin.ext (by match a with | ⟨0, _⟩ => rfl)))

theorem kernel_value (c : Dev nD) :
    ((dat1 (F := Ideal) (V2 m) c).arrAt 3 cfg1.N : S16384x4096.Idx → EReal)
      = Cert.Xnor.G (m ((c : Thread nD τ).loc main_arg0)) (m ((c : Thread nD τ).loc main_arg1)) (m ((c : Thread nD τ).loc main_arg2)) := by
  funext i
  obtain ⟨r, o, rfl⟩ : ∃ (r : Fin 16384) (o : Fin 4096), i = ix2 r o := ⟨i 0, i 1, eq_ix2 i⟩
  rw [Cert.KernelIdeal.MatmulValue.matmul_final_apply (V2 m) c r o, Cert.Xnor.G_apply]
  rw [V2_main_arg0 m c, V2_main_v0 m c, V2_main_v1 m c, bias_row]
  congr 1
  refine Finset.sum_congr rfl fun k _ => ?_
  rw [Cert.KernelIdeal.PrepValue.prep_final_apply (V0 m) c o k]

end Cert.KernelIdeal.FinalValue

end
-- ==== Proof.RefValue.lean ====
/-
  The reference program's result is the specified function `Cert.Xnor.G` of its three arguments.

  The reference prepares the whole 4096 × 4096 weight matrix at once: row sums as a column over 4096, broadcast back
  and subtracted; the clip to `[-1, 1]` (a maximum with `-1`, then a minimum with `1`); the row sums of the absolute
  values over 4096; the sign times that scale; a transpose; the product of the signs of the activations with the
  transposed matrix; and the bias broadcast over the rows. Read one stage at a time at an index, row `o` of the prepared
  matrix is the prepared row `Cert.Xnor.wrow` of row `o` of the weights, the transpose swaps the two coordinates, and the
  product at `(t, o)` sums over `k` the sign of activation `(t, k)` times the prepared weight `(o, k)`. A sum that starts
  from the zero word starts from zero.
-/
import proofs.«118526_j5781025980877_1_alg».proof.Proof.Spec
import proofs.«118526_j5781025980877_1_alg».proof.Proof.Gen.ReferenceIdeal.Read

noncomputable section

namespace Cert.ReferenceIdeal.RefValue

open Cert.ReferenceIdeal Cert.ReferenceIdeal.Read Idealize.ShloMosaic Idealize.ShloMosaic.ValueIdx

/-- The mean column broadcast back over the lanes: at `(p, c)` the sum of row `p` of the weights over 4096. -/
theorem mean_apply (x1 : (⟨S4096x4096, .f32⟩ : BufTy).Contents (Elt Ideal)) (p c : Fin 4096) :
    val_main_v4 (F := Ideal) x1 (ix2 p c)
      = Ideal.div (∑ k : Fin 4096, x1 (ix2 p k)) (Ideal.ofBits .f32 0x45800000#32) := by
  rw [val_main_v4_apply, val_main_v3_apply, val_main_v1_apply, val_main_v0_apply, val_main_v2_apply,
    val_main_cst_0_apply, val_main_cst_apply]
  show Ideal.div (Ideal.ofBits .f32 0x00000000#32 + _) _ = _
  rw [Ideal.ofBits_zero_f32, zero_add]
  refine congrArg (Ideal.div · _) (Finset.sum_congr rfl fun k _ => congrArg x1 ?_)
  exact funext fun a => Fin.ext (by match a with | ⟨0, _⟩ => rfl | ⟨1, _⟩ => rfl)

/-- The clipped matrix at `(p, k)`: the clipped centred entry `k` of row `p` of the weights. -/
theorem clip_apply (x1 : (⟨S4096x4096, .f32⟩ : BufTy).Contents (Elt Ideal)) (p k : Fin 4096) :
    val_main_v6 (F := Ideal) x1 (ix2 p k) = Cert.Xnor.clipped (fun k' => x1 (ix2 p k')) k := by
  rw [val_main_v6_apply, val_main_call0_v4_apply, val_main_call0_v3_apply, val_main_cst_2_apply,
    val_main_call0_v2_apply, val_main_call0_v1_apply, val_main_call0_v0_apply, val_main_cst_1_apply,
    val_main_v5_apply, mean_apply]
  rfl

/-- The scale column broadcast back over the lanes: at `(p, c)` the mean absolute value of the clipped row `p`. -/
theorem scale_apply (x1 : (⟨S4096x4096, .f32⟩ : BufTy).Contents (Elt Ideal)) (p c : Fin 4096) :
    val_main_v14 (F := Ideal) x1 (ix2 p c) = Cert.Xnor.meanAbs (fun k' => x1 (ix2 p k')) := by
  rw [val_main_v14_apply, val_main_v12_apply, val_main_v10_apply, val_main_v9_apply, val_main_v11_apply,
    val_main_cst_4_apply, val_main_cst_3_apply]
  show Ideal.div (Ideal.ofBits .f32 0x00000000#32 + _) _ = _
  rw [Ideal.ofBits_zero_f32, zero_add]
  refine congrArg (Ideal.div · _) (Finset.sum_congr rfl fun k _ => ?_)
  have e : idx_main_v9 (idx_main_v10 (idx_main_v14 (ix2 p c))) k = ix2 p k :=
    funext fun a => Fin.ext (by match a with | ⟨0, _⟩ => rfl | ⟨1, _⟩ => rfl)
  rw [e, val_main_v8_apply, clip_apply]
  rfl

/-- The transposed prepared matrix at `(k, o)`: entry `k` of the prepared row made from row `o` of the weights. -/
theorem weight_apply (x1 : (⟨S4096x4096, .f32⟩ : BufTy).Contents (Elt Ideal)) (k o : Fin 4096) :
    val_main_v16 (F := Ideal) x1 (ix2 k o) = Cert.Xnor.wrow (fun k' => x1 (ix2 o k')) k := by
  have e : idx_main_v16 (ix2 k o) = ix2 o k :=
    funext fun a => Fin.ext (by match a with | ⟨0, _⟩ => rfl | ⟨1, _⟩ => rfl)
  rw [val_main_v16_apply, e, val_main_v15_apply, val_main_v13_apply, scale_apply, clip_apply]
  rfl

/-- The reference's result, as the stage the run's term is, is the specified function of the activations `x`, the
    full-precision weights `fp` and the bias `b`. -/
theorem ref_is_G (x : (⟨S16384x4096, .f32⟩ : BufTy).Contents (Elt Ideal))
    (fp : (⟨S4096x4096, .f32⟩ : BufTy).Contents (Elt Ideal)) (b : (⟨S4096, .f32⟩ : BufTy).Contents (Elt Ideal)) :
    val_main_v20 (F := Ideal) x fp b = Cert.Xnor.G x fp b := by
  funext i
  obtain ⟨r, o, rfl⟩ : ∃ (r : Fin 16384) (o : Fin 4096), i = ix2 r o := ⟨i 0, i 1, eq_ix2 i⟩
  rw [Cert.Xnor.G_apply, val_main_v20_apply, val_main_v17_apply, val_main_v19_apply, val_main_v18_apply]
  refine congrArg₂ (· + ·) (Finset.sum_congr rfl fun k _ => ?_) (congrArg b ?_)
  · have el : lidx_main_v17 (ix2 r o) k = ix2 r k :=
      funext fun a => Fin.ext (by match a with | ⟨0, _⟩ => rfl | ⟨1, _⟩ => rfl)
    have er : ridx_main_v17 (ix2 r o) k = ix2 k o :=
      funext fun a => Fin.ext (by match a with | ⟨0, _⟩ => rfl | ⟨1, _⟩ => rfl)
    rw [el, er, val_main_v7_apply, weight_apply]
    rfl
  · exact funext fun a => Fin.ext (by match a with | ⟨0, _⟩ => rfl)

end Cert.ReferenceIdeal.RefValue

end
-- ==== Proof.lean ====
/-
  The binarized linear layer: out = sign(x) · Wᵀ + bias, where row o of W is the full-precision row o centred by
  its mean, clipped to [−1, 1], replaced by its sign and scaled by the mean of the clipped row's absolute values.

  The kernel computes it in two regions: the first prepares W (one block of 512 rows per grid point), the second
  accumulates the product over two halves of the contracted axis in an accumulator it keeps between grid points and
  adds the bias when it emits a block. The reference computes it with whole-array operations. At the ideal instance
  both are the same function of the three argument arrays: a sum split in two halves is the whole sum, a product
  accumulated from zero is the product, and rounding to a narrower format is the identity. No finiteness of the
  inputs is needed: only associativity and commutativity of the extended reals' sum are used.

  The frames of the two kernel programs come from running each region's body at every grid point (the first region
  point by point independently, the second by the parity of the position) and chaining the regions with the host's
  reshape between them; the reference's frame is its run with the result dropped. The ideal pass replaced the two
  sign-bit windows by comparisons with zero, which is what the two preserved statements say.
-/
import proofs.«118526_j5781025980877_1_alg».proof.Defs
import proofs.«118526_j5781025980877_1_alg».proof.Proof.Gen.Kernel
import proofs.«118526_j5781025980877_1_alg».proof.Proof.Gen.KernelIdeal
import proofs.«118526_j5781025980877_1_alg».proof.Proof.Gen.ReferenceIdeal
import proofs.«118526_j5781025980877_1_alg».proof.Proof.Gen.Pre_finite_inputs
import proofs.«118526_j5781025980877_1_alg».proof.Proof.Gen.ReferenceIdeal.Run
import proofs.«118526_j5781025980877_1_alg».proof.Proof.Gen.ReferenceIdeal.Read
import proofs.«118526_j5781025980877_1_alg».proof.Proof.XnorRun
import proofs.«118526_j5781025980877_1_alg».proof.Proof.XnorRunBits
import proofs.«118526_j5781025980877_1_alg».proof.Proof.FinalValue
import proofs.«118526_j5781025980877_1_alg».proof.Proof.RefValue
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Hand.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Each sign-bit window the ideal pass replaced is, at the ideal instance, the comparison with zero it printed, and at
    the word level ±1.0's pattern chosen by the sign bit. -/
theorem preserves : Cert.preserves_Kernel_KernelIdeal :=
  ⟨IdealRules.sign_bit.statement Cert.KernelIdeal.S512x4096 .f32, IdealRules.sign_bit.statement Cert.KernelIdeal.S1024x2048 .f32⟩

/-- Both idealized programs end with the layer function of the (agreeing) argument arrays in their result. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Xnor.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact (θ_run Cert.KernelIdeal.defs _ _).mono (fun r h c => ⟨(h c).1.trans (Cert.KernelIdeal.FinalValue.kernel_value m c), (h c).2⟩)
      (Cert.KernelIdeal.Hand.run_value (F := Ideal) m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v20_eq, Cert.ReferenceIdeal.RefValue.ref_is_G, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
